-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1x12 : Shape := ⟨3, ![4096, 1, 12]⟩
abbrev S4096x200x12 : Shape := ⟨3, ![4096, 200, 12]⟩
abbrev S4096x200 : Shape := ⟨2, ![4096, 200]⟩
abbrev S48x80 : Shape := ⟨2, ![48, 80]⟩
abbrev S80 : Shape := ⟨1, ![80]⟩
abbrev S80x40 : Shape := ⟨2, ![80, 40]⟩
abbrev S40 : Shape := ⟨1, ![40]⟩
abbrev S40x1 : Shape := ⟨2, ![40, 1]⟩
abbrev S1 : Shape := ⟨1, ![1]⟩
abbrev S_ : Shape := ⟨0, ![]⟩

class Facts : Prop where
  bcast_S_S4096x1x12 : S_.BroadcastsInDim S4096x1x12 (![] : Fin 0 → Fin S4096x1x12.rank)
  reducesTo_S4096x1x12_S_d0_1_2 : S4096x1x12.ReducesTo [0, 1, 2] S_
  h_S_ : 0 < S_.numel
  bcast_S_S4096x200x12 : S_.BroadcastsInDim S4096x200x12 (![] : Fin 0 → Fin S4096x200x12.rank)
  reducesTo_S4096x200x12_S_d0_1_2 : S4096x200x12.ReducesTo [0, 1, 2] S_
  bcast_S_S48x80 : S_.BroadcastsInDim S48x80 (![] : Fin 0 → Fin S48x80.rank)
  reducesTo_S48x80_S_d0_1 : S48x80.ReducesTo [0, 1] S_
  bcast_S_S80 : S_.BroadcastsInDim S80 (![] : Fin 0 → Fin S80.rank)
  reducesTo_S80_S_d0 : S80.ReducesTo [0] S_
  bcast_S_S80x40 : S_.BroadcastsInDim S80x40 (![] : Fin 0 → Fin S80x40.rank)
  reducesTo_S80x40_S_d0_1 : S80x40.ReducesTo [0, 1] S_
  bcast_S_S40 : S_.BroadcastsInDim S40 (![] : Fin 0 → Fin S40.rank)
  reducesTo_S40_S_d0 : S40.ReducesTo [0] S_
  bcast_S_S40x1 : S_.BroadcastsInDim S40x1 (![] : Fin 0 → Fin S40x1.rank)
  reducesTo_S40x1_S_d0_1 : S40x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg12 : FVec F S40 .f32) (main_arg13 : FVec F S40x1 .f32) (main_arg14 : FVec F S1 .f32) (main_v48 : IVec S_ 1) (main_v49 : FVec F S40 .f32) (main_v50 : FVec F S40 .f32) : IVec S_ 1 :=
  let main_v51 : IVec S40 1 := cmpf .olt main_v49 main_v50
  let main_c_19 : IVec S_ 1 := constantI S_ 1 1#1
  let main_v52 : IVec S_ 1 := (fun x v => Host.reduce IntOp.andi x v reducesTo_S40_S_d0 h_S_) main_v51 main_c_19
  let main_v53 : IVec S_ 1 := andi main_v48 main_v52
  let main_v54 : FVec F S40 .f32 := Host.absf main_arg12
  let main_cst_20 : FVec F S_ .f32 := constant S_ .f32 0x7F800000#32
  let main_v55 : FVec F S40 .f32 := broadcastInDim S40 ![] bcast_S_S40 main_cst_20
  let main_v56 : IVec S40 1 := cmpf .olt main_v54 main_v55
  let main_c_21 : IVec S_ 1 := constantI S_ 1 1#1
  let main_v57 : IVec S_ 1 := (fun x v => Host.reduce IntOp.andi x v reducesTo_S40_S_d0 h_S_) main_v56 main_c_21
  let main_v58 : IVec S_ 1 := andi main_v53 main_v57
  let main_v59 : FVec F S40x1 .f32 := Host.absf main_arg13
  let main_cst_22 : FVec F S_ .f32 := constant S_ .f32 0x7F800000#32
  let main_v60 : FVec F S40x1 .f32 := broadcastInDim S40x1 ![] bcast_S_S40x1 main_cst_22
  let main_v61 : IVec S40x1 1 := cmpf .olt main_v59 main_v60
  let main_c_23 : IVec S_ 1 := constantI S_ 1 1#1
  let main_v62 : IVec S_ 1 := (fun x v => Host.reduce IntOp.andi x v reducesTo_S40x1_S_d0_1 h_S_) main_v61 main_c_23
  let main_v63 : IVec S_ 1 := andi main_v58 main_v62
  let main_v64 : FVec F S1 .f32 := Host.absf main_arg14
  let main_cst_24 : FVec F S_ .f32 := constant S_ .f32 0x7F800000#32
  let main_v65 : FVec F S1 .f32 := broadcastInDim S1 ![] bcast_S_S1 main_cst_24
  let main_v66 : IVec S1 1 := cmpf .olt main_v64 main_v65
  let main_c_25 : IVec S_ 1 := constantI S_ 1 1#1
  let main_v67 : IVec S_ 1 := (fun x v => Host.reduce IntOp.andi x v reducesTo_S1_S_d0 h_S_) main_v66 main_c_25
  fn_part4 (F := F) main_v63 main_v67

def fn_part2 {F : FTy → Type} [FloatOps F] (main_arg8 : FVec F S40 .f32) (main_arg9 : FVec F S80 .f32) (main_arg10 : FVec F S80 .f32) (main_arg11 : FVec F S40 .f32) (main_arg12 : FVec F S40 .f32) (main_arg13 : FVec F S40x1 .f32) (main_arg14 : FVec F S1 .f32) (main_v33 : IVec S_ 1) : IVec S_ 1 :=
  let main_v34 : FVec F S40 .f32 := Host.absf main_arg8
  let main_cst_12 : FVec F S_ .f32 := constant S_ .f32 0x7F800000#32
  let main_v35 : FVec F S40 .f32 := broadcastInDim S40 ![] bcast_S_S40 main_cst_12
  let main_v36 : IVec S40 1 := cmpf .olt main_v34 main_v35
  let main_c_13 : IVec S_ 1 := constantI S_ 1 1#1
  let main_v37 : IVec S_ 1 := (fun x v => Host.reduce IntOp.andi x v reducesTo_S40_S_d0 h_S_) main_v36 main_c_13
  let main_v38 : IVec S_ 1 := andi main_v33 main_v37
  let main_v39 : FVec F S80 .f32 := Host.absf main_arg9
  let main_cst_14 : FVec F S_ .f32 := constant S_ .f32 0x7F800000#32
  let main_v40 : FVec F S80 .f32 := broadcastInDim S80 ![] bcast_S_S80 main_cst_14
  let main_v41 : IVec S80 1 := cmpf .olt main_v39 main_v40
  let main_c_15 : IVec S_ 1 := constantI S_ 1 1#1
  let main_v42 : IVec S_ 1 := (fun x v => Host.reduce IntOp.andi x v reducesTo_S80_S_d0 h_S_) main_v41 main_c_15
  let main_v43 : IVec S_ 1 := andi main_v38 main_v42
  let main_v44 : FVec F S80 .f32 := Host.absf main_arg10
  let main_cst_16 : FVec F S_ .f32 := constant S_ .f32 0x7F800000#32
  let main_v45 : FVec F S80 .f32 := broadcastInDim S80 ![] bcast_S_S80 main_cst_16
  let main_v46 : IVec S80 1 := cmpf .olt main_v44 main_v45
  let main_c_17 : IVec S_ 1 := constantI S_ 1 1#1
  let main_v47 : IVec S_ 1 := (fun x v => Host.reduce IntOp.andi x v reducesTo_S80_S_d0 h_S_) main_v46 main_c_17
  let main_v48 : IVec S_ 1 := andi main_v43 main_v47
  let main_v49 : FVec F S40 .f32 := Host.absf main_arg11
  let main_cst_18 : FVec F S_ .f32 := constant S_ .f32 0x7F800000#32
  let main_v50 : FVec F S40 .f32 := broadcastInDim S40 ![] bcast_S_S40 main_cst_18
  fn_part3 (F := F) main_arg12 main_arg13 main_arg14 main_v48 main_v49 main_v50

def fn_part1 {F : FTy → Type} [FloatOps F] (main_arg5 : FVec F S80x40 .f32) (main_arg6 : FVec F S40 .f32) (main_arg7 : FVec F S80 .f32) (main_arg8 : FVec F S40 .f32) (main_arg9 : FVec F S80 .f32) (main_arg10 : FVec F S80 .f32) (main_arg11 : FVec F S40 .f32) (main_arg12 : FVec F S40 .f32) (main_arg13 : FVec F S40x1 .f32) (main_arg14 : FVec F S1 .f32) (main_v13 : IVec S_ 1) (main_v16 : IVec S80 1) : IVec S_ 1 :=
  let main_c_5 : IVec S_ 1 := constantI S_ 1 1#1
  let main_v17 : IVec S_ 1 := (fun x v => Host.reduce IntOp.andi x v reducesTo_S80_S_d0 h_S_) main_v16 main_c_5
  let main_v18 : IVec S_ 1 := andi main_v13 main_v17
  let main_v19 : FVec F S80x40 .f32 := Host.absf main_arg5
  let main_cst_6 : FVec F S_ .f32 := constant S_ .f32 0x7F800000#32
  let main_v20 : FVec F S80x40 .f32 := broadcastInDim S80x40 ![] bcast_S_S80x40 main_cst_6
  let main_v21 : IVec S80x40 1 := cmpf .olt main_v19 main_v20
  let main_c_7 : IVec S_ 1 := constantI S_ 1 1#1
  let main_v22 : IVec S_ 1 := (fun x v => Host.reduce IntOp.andi x v reducesTo_S80x40_S_d0_1 h_S_) main_v21 main_c_7
  let main_v23 : IVec S_ 1 := andi main_v18 main_v22
  let main_v24 : FVec F S40 .f32 := Host.absf main_arg6
  let main_cst_8 : FVec F S_ .f32 := constant S_ .f32 0x7F800000#32
  let main_v25 : FVec F S40 .f32 := broadcastInDim S40 ![] bcast_S_S40 main_cst_8
  let main_v26 : IVec S40 1 := cmpf .olt main_v24 main_v25
  let main_c_9 : IVec S_ 1 := constantI S_ 1 1#1
  let main_v27 : IVec S_ 1 := (fun x v => Host.reduce IntOp.andi x v reducesTo_S40_S_d0 h_S_) main_v26 main_c_9
  let main_v28 : IVec S_ 1 := andi main_v23 main_v27
  let main_v29 : FVec F S80 .f32 := Host.absf main_arg7
  let main_cst_10 : FVec F S_ .f32 := constant S_ .f32 0x7F800000#32
  let main_v30 : FVec F S80 .f32 := broadcastInDim S80 ![] bcast_S_S80 main_cst_10
  let main_v31 : IVec S80 1 := cmpf .olt main_v29 main_v30
  let main_c_11 : IVec S_ 1 := constantI S_ 1 1#1
  let main_v32 : IVec S_ 1 := (fun x v => Host.reduce IntOp.andi x v reducesTo_S80_S_d0 h_S_) main_v31 main_c_11
  let main_v33 : IVec S_ 1 := andi main_v28 main_v32
  fn_part2 (F := F) main_arg8 main_arg9 main_arg10 main_arg11 main_arg12 main_arg13 main_arg14 main_v33

def fn {F : FTy → Type} [FloatOps F] (main_arg0 : FVec F S4096x1x12 .f32) (main_arg1 : FVec F S4096x200x12 .f32) (main_arg2 : IVec S4096x200 1) (main_arg3 : FVec F S48x80 .f32) (main_arg4 : FVec F S80 .f32) (main_arg5 : FVec F S80x40 .f32) (main_arg6 : FVec F S40 .f32) (main_arg7 : FVec F S80 .f32) (main_arg8 : FVec F S40 .f32) (main_arg9 : FVec F S80 .f32) (main_arg10 : FVec F S80 .f32) (main_arg11 : FVec F S40 .f32) (main_arg12 : FVec F S40 .f32) (main_arg13 : FVec F S40x1 .f32) (main_arg14 : FVec F S1 .f32) : IVec S_ 1 :=
  let main_v0 : FVec F S4096x1x12 .f32 := Host.absf main_arg0
  let main_cst : FVec F S_ .f32 := constant S_ .f32 0x7F800000#32
  let main_v1 : FVec F S4096x1x12 .f32 := broadcastInDim S4096x1x12 ![] bcast_S_S4096x1x12 main_cst
  let main_v2 : IVec S4096x1x12 1 := cmpf .olt main_v0 main_v1
  let main_c : IVec S_ 1 := constantI S_ 1 1#1
  let main_v3 : IVec S_ 1 := (fun x v => Host.reduce IntOp.andi x v reducesTo_S4096x1x12_S_d0_1_2 h_S_) main_v2 main_c
  let main_v4 : FVec F S4096x200x12 .f32 := Host.absf main_arg1
  let main_cst_0 : FVec F S_ .f32 := constant S_ .f32 0x7F800000#32
  let main_v5 : FVec F S4096x200x12 .f32 := broadcastInDim S4096x200x12 ![] bcast_S_S4096x200x12 main_cst_0
  let main_v6 : IVec S4096x200x12 1 := cmpf .olt main_v4 main_v5
  let main_c_1 : IVec S_ 1 := constantI S_ 1 1#1
  let main_v7 : IVec S_ 1 := (fun x v => Host.reduce IntOp.andi x v reducesTo_S4096x200x12_S_d0_1_2 h_S_) main_v6 main_c_1
  let main_v8 : IVec S_ 1 := andi main_v3 main_v7
  let main_v9 : FVec F S48x80 .f32 := Host.absf main_arg3
  let main_cst_2 : FVec F S_ .f32 := constant S_ .f32 0x7F800000#32
  let main_v10 : FVec F S48x80 .f32 := broadcastInDim S48x80 ![] bcast_S_S48x80 main_cst_2
  let main_v11 : IVec S48x80 1 := cmpf .olt main_v9 main_v10
  let main_c_3 : IVec S_ 1 := constantI S_ 1 1#1
  let main_v12 : IVec S_ 1 := (fun x v => Host.reduce IntOp.andi x v reducesTo_S48x80_S_d0_1 h_S_) main_v11 main_c_3
  let main_v13 : IVec S_ 1 := andi main_v8 main_v12
  let main_v14 : FVec F S80 .f32 := Host.absf main_arg4
  let main_cst_4 : FVec F S_ .f32 := constant S_ .f32 0x7F800000#32
  let main_v15 : FVec F S80 .f32 := broadcastInDim S80 ![] bcast_S_S80 main_cst_4
  let main_v16 : IVec S80 1 := cmpf .olt main_v14 main_v15
  fn_part1 (F := F) main_arg5 main_arg6 main_arg7 main_arg8 main_arg9 main_arg10 main_arg11 main_arg12 main_arg13 main_arg14 main_v13 main_v16
-- ==== Kernel.lean ====
abbrev S4096x1x12 : Shape := ⟨3, ![4096, 1, 12]⟩
abbrev S4096x200x12 : Shape := ⟨3, ![4096, 200, 12]⟩
abbrev S4096x200 : Shape := ⟨2, ![4096, 200]⟩
abbrev S48x80 : Shape := ⟨2, ![48, 80]⟩
abbrev S80 : Shape := ⟨1, ![80]⟩
abbrev S80x40 : Shape := ⟨2, ![80, 40]⟩
abbrev S40 : Shape := ⟨1, ![40]⟩
abbrev S40x1 : Shape := ⟨2, ![40, 1]⟩
abbrev S1 : Shape := ⟨1, ![1]⟩
abbrev S12x80 : Shape := ⟨2, ![12, 80]⟩
abbrev S1x40 : Shape := ⟨2, ![1, 40]⟩
abbrev S1x1x40 : Shape := ⟨3, ![1, 1, 40]⟩
abbrev S32x1x12 : Shape := ⟨3, ![32, 1, 12]⟩
abbrev S32x200x12 : Shape := ⟨3, ![32, 200, 12]⟩
abbrev S32x12 : Shape := ⟨2, ![32, 12]⟩
abbrev S32x80 : Shape := ⟨2, ![32, 80]⟩
abbrev S6400x12 : Shape := ⟨2, ![6400, 12]⟩
abbrev S6400x80 : Shape := ⟨2, ![6400, 80]⟩
abbrev S32x200x80 : Shape := ⟨3, ![32, 200, 80]⟩
abbrev S32x1x80 : Shape := ⟨3, ![32, 1, 80]⟩
abbrev S1x1x80 : Shape := ⟨3, ![1, 1, 80]⟩
abbrev S6400x40 : Shape := ⟨2, ![6400, 40]⟩
abbrev S32x200x40 : Shape := ⟨3, ![32, 200, 40]⟩
abbrev S32x200 : Shape := ⟨2, ![32, 200]⟩
abbrev S32x200x1 : Shape := ⟨3, ![32, 200, 1]⟩
abbrev S1x1x1 : Shape := ⟨3, ![1, 1, 1]⟩

abbrev nBuf : Space → Nat
  | .hbm => 29
  | .vmem => 20
  | .smem => 0
  | _ => 0

abbrev bufTy : (tb : Table) → Fin (tcTables nBuf tb) → BufTy
  | .hbm, ⟨0, _⟩ => ⟨S4096x1x12, .f32⟩
  | .hbm, ⟨1, _⟩ => ⟨S4096x200x12, .f32⟩
  | .hbm, ⟨2, _⟩ => ⟨S4096x200, .i1⟩
  | .hbm, ⟨3, _⟩ => ⟨S48x80, .f32⟩
  | .hbm, ⟨4, _⟩ => ⟨S80, .f32⟩
  | .hbm, ⟨5, _⟩ => ⟨S80x40, .f32⟩
  | .hbm, ⟨6, _⟩ => ⟨S40, .f32⟩
  | .hbm, ⟨7, _⟩ => ⟨S80, .f32⟩
  | .hbm, ⟨8, _⟩ => ⟨S40, .f32⟩
  | .hbm, ⟨9, _⟩ => ⟨S80, .f32⟩
  | .hbm, ⟨10, _⟩ => ⟨S80, .f32⟩
  | .hbm, ⟨11, _⟩ => ⟨S40, .f32⟩
  | .hbm, ⟨12, _⟩ => ⟨S40, .f32⟩
  | .hbm, ⟨13, _⟩ => ⟨S40x1, .f32⟩
  | .hbm, ⟨14, _⟩ => ⟨S1, .f32⟩
  | .hbm, ⟨15, _⟩ => ⟨S12x80, .f32⟩
  | .hbm, ⟨16, _⟩ => ⟨S12x80, .f32⟩
  | .hbm, ⟨17, _⟩ => ⟨S12x80, .f32⟩
  | .hbm, ⟨18, _⟩ => ⟨S12x80, .f32⟩
  | .hbm, ⟨19, _⟩ => ⟨S12x80, .f32⟩
  | .hbm, ⟨20, _⟩ => ⟨S12x80, .f32⟩
  | .hbm, ⟨21, _⟩ => ⟨S12x80, .f32⟩
  | .hbm, ⟨22, _⟩ => ⟨S12x80, .bf16⟩
  | .hbm, ⟨23, _⟩ => ⟨S12x80, .bf16⟩
  | .hbm, ⟨24, _⟩ => ⟨S12x80, .bf16⟩
  | .hbm, ⟨25, _⟩ => ⟨S80x40, .bf16⟩
  | .hbm, ⟨26, _⟩ => ⟨S1x40, .f32⟩
  | .hbm, ⟨27, _⟩ => ⟨S1x1x40, .f32⟩
  | .hbm, ⟨28, _⟩ => ⟨S4096x1x12, .f32⟩
  | .local _ .vmem, ⟨0, _⟩ => ⟨S32x1x12, .f32⟩
  | .local _ .vmem, ⟨1, _⟩ => ⟨S32x1x12, .f32⟩
  | .local _ .vmem, ⟨2, _⟩ => ⟨S32x200x12, .f32⟩
  | .local _ .vmem, ⟨3, _⟩ => ⟨S32x200x12, .f32⟩
  | .local _ .vmem, ⟨4, _⟩ => ⟨S12x80, .bf16⟩
  | .local _ .vmem, ⟨5, _⟩ => ⟨S12x80, .bf16⟩
  | .local _ .vmem, ⟨6, _⟩ => ⟨S12x80, .bf16⟩
  | .local _ .vmem, ⟨7, _⟩ => ⟨S80, .f32⟩
  | .local _ .vmem, ⟨8, _⟩ => ⟨S80x40, .bf16⟩
  | .local _ .vmem, ⟨9, _⟩ => ⟨S40, .f32⟩
  | .local _ .vmem, ⟨10, _⟩ => ⟨S80, .f32⟩
  | .local _ .vmem, ⟨11, _⟩ => ⟨S40, .f32⟩
  | .local _ .vmem, ⟨12, _⟩ => ⟨S80, .f32⟩
  | .local _ .vmem, ⟨13, _⟩ => ⟨S80, .f32⟩
  | .local _ .vmem, ⟨14, _⟩ => ⟨S40, .f32⟩
  | .local _ .vmem, ⟨15, _⟩ => ⟨S40, .f32⟩
  | .local _ .vmem, ⟨16, _⟩ => ⟨S1x1x40, .f32⟩
  | .local _ .vmem, ⟨17, _⟩ => ⟨S1, .f32⟩
  | .local _ .vmem, ⟨18, _⟩ => ⟨S32x1x12, .f32⟩
  | .local _ .vmem, ⟨19, _⟩ => ⟨S32x1x12, .f32⟩
  | _, _ => ⟨S4096x1x12, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg16_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem16_1 : DmaSem sig := 19

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x1x12 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x200x12 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S12x80 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S12x80 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S12x80 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S80 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S80x40 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S40 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S80 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S40 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S80 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S80 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S40 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S40 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1x40 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S32x1x12 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

class Facts₀ : Prop where
  slices_S48x80_S12x80_0_0 : S48x80.Slices ![0, 0] S12x80
  slices_S48x80_S12x80_24_0 : S48x80.Slices ![24, 0] S12x80
  slices_S48x80_S12x80_12_0 : S48x80.Slices ![12, 0] S12x80
  slices_S48x80_S12x80_36_0 : S48x80.Slices ![36, 0] S12x80
  bitsLt_bf16_f32 : FTy.bits .bf16 < FTy.bits .f32
  transposes_S40x1_S1x40_1_0 : S40x1.Transposes [1, 0] S1x40
  shapeCasts_S1x40_S1x1x40 : S1x40.ShapeCasts S1x1x40
  inb_S32x1x12_S32x1x12_0_0_0 : ∀ a, (![0, 0, 0] : Fin 3 → Nat) a + S32x1x12.size a ≤ S32x1x12.size a
  h_S32x1x12 : 0 < S32x1x12.numel
  inb_S32x200x12_S32x200x12_0_0_0 : ∀ a, (![0, 0, 0] : Fin 3 → Nat) a + S32x200x12.size a ≤ S32x200x12.size a
  h_S32x200x12 : 0 < S32x200x12.numel
  shapeCasts_S32x1x12_S32x12 : S32x1x12.ShapeCasts S32x12
  inb_S12x80_S12x80_0_0 : ∀ a, (![0, 0] : Fin 2 → Nat) a + S12x80.size a ≤ S12x80.size a
  h_S12x80 : 0 < S12x80.numel
  shapeCasts_S12x80_S12x80 : S12x80.ShapeCasts S12x80
  shapeCasts_S32x200x12_S6400x12 : S32x200x12.ShapeCasts S6400x12
  shapeCasts_S32x1x12_S32x1x12 : S32x1x12.ShapeCasts S32x1x12
  broadcasts_S32x1x12_S32x200x12 : S32x1x12.Broadcasts S32x200x12
  shapeCasts_S6400x80_S32x200x80 : S6400x80.ShapeCasts S32x200x80
  shapeCasts_S32x80_S32x1x80 : S32x80.ShapeCasts S32x1x80
  broadcasts_S32x1x80_S32x200x80 : S32x1x80.Broadcasts S32x200x80
  inb_S80_S80_0 : ∀ a, (![0] : Fin 1 → Nat) a + S80.size a ≤ S80.size a
  h_S80 : 0 < S80.numel
  shapeCasts_S80_S1x1x80 : S80.ShapeCasts S1x1x80
  broadcasts_S1x1x80_S32x200x80 : S1x1x80.Broadcasts S32x200x80
  shapeCasts_S32x200x80_S6400x80 : S32x200x80.ShapeCasts S6400x80
  inb_S80x40_S80x40_0_0 : ∀ a, (![0, 0] : Fin 2 → Nat) a + S80x40.size a ≤ S80x40.size a
  h_S80x40 : 0 < S80x40.numel
  shapeCasts_S80x40_S80x40 : S80x40.ShapeCasts S80x40
  shapeCasts_S6400x40_S32x200x40 : S6400x40.ShapeCasts S32x200x40
  inb_S40_S40_0 : ∀ a, (![0] : Fin 1 → Nat) a + S40.size a ≤ S40.size a
  h_S40 : 0 < S40.numel
  shapeCasts_S40_S1x1x40 : S40.ShapeCasts S1x1x40
  broadcasts_S1x1x40_S32x200x40 : S1x1x40.Broadcasts S32x200x40
  inb_S1x1x40_S1x1x40_0_0_0 : ∀ a, (![0, 0, 0] : Fin 3 → Nat) a + S1x1x40.size a ≤ S1x1x40.size a
  h_S1x1x40 : 0 < S1x1x40.numel
  shapeCasts_S1x1x40_S1x1x40 : S1x1x40.ShapeCasts S1x1x40
  reduces_S32x200x40_S32x200 : S32x200x40.Reduces [2] S32x200
  shapeCasts_S32x200_S32x200x1 : S32x200.ShapeCasts S32x200x1
  inb_S1_S1_0 : ∀ a, (![0] : Fin 1 → Nat) a + S1.size a ≤ S1.size a
  h_S1 : 0 < S1.numel
  shapeCasts_S1_S1x1x1 : S1.ShapeCasts S1x1x1
  broadcasts_S1x1x1_S32x200x1 : S1x1x1.Broadcasts S32x200x1
  shapeCasts_S32x200x1_S32x200 : S32x200x1.ShapeCasts S32x200
  broadcasts_S32x200x1_S32x200x12 : S32x200x1.Broadcasts S32x200x12
  reduces_S32x200x12_S32x12 : S32x200x12.Reduces [1] S32x12
  shapeCasts_S32x12_S32x1x12 : S32x12.ShapeCasts S32x1x12
  dot_S32x12_S12x80_S32x80_1_0_0_1_n_n_wf : DotDims.WF S32x12 S12x80 S32x80 [1] [0] [0] [1] [] []
  dot_S6400x12_S12x80_S6400x80_1_0_0_1_n_n_wf : DotDims.WF S6400x12 S12x80 S6400x80 [1] [0] [0] [1] [] []
  dot_S6400x80_S80x40_S6400x40_1_0_0_1_n_n_wf : DotDims.WF S6400x80 S80x40 S6400x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x1x12.size a ≤ S4096x1x12.size a
  hwx0_0 : ∀ i : grid0.Coords, EltTy.bits .f32 = 32 ∨ (Rect.block (s := S4096x1x12) S32x1x12.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x200x12.size a ≤ S4096x200x12.size a
  hwx0_1 : ∀ i : grid0.Coords, EltTy.bits .f32 = 32 ∨ (Rect.block (s := S4096x200x12) S32x200x12.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S12x80.size a ≤ S12x80.size a
  hwx0_2 : ∀ i : grid0.Coords, EltTy.bits .bf16 = 32 ∨ (Rect.block (s := S12x80) S12x80.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S12x80.size a ≤ S12x80.size a
  hwx0_3 : ∀ i : grid0.Coords, EltTy.bits .bf16 = 32 ∨ (Rect.block (s := S12x80) S12x80.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S12x80.size a ≤ S12x80.size a
  hwx0_4 : ∀ i : grid0.Coords, EltTy.bits .bf16 = 32 ∨ (Rect.block (s := S12x80) S12x80.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S80.size a ≤ S80.size a
  hwx0_5 : ∀ i : grid0.Coords, EltTy.bits .f32 = 32 ∨ (Rect.block (s := S80) S80.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S80x40.size a ≤ S80x40.size a
  hwx0_6 : ∀ i : grid0.Coords, EltTy.bits .bf16 = 32 ∨ (Rect.block (s := S80x40) S80x40.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S40.size a ≤ S40.size a
  hwx0_7 : ∀ i : grid0.Coords, EltTy.bits .f32 = 32 ∨ (Rect.block (s := S40) S40.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S80.size a ≤ S80.size a
  hwx0_8 : ∀ i : grid0.Coords, EltTy.bits .f32 = 32 ∨ (Rect.block (s := S80) S80.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S40.size a ≤ S40.size a
  hwx0_9 : ∀ i : grid0.Coords, EltTy.bits .f32 = 32 ∨ (Rect.block (s := S40) S40.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S80.size a ≤ S80.size a
  hwx0_10 : ∀ i : grid0.Coords, EltTy.bits .f32 = 32 ∨ (Rect.block (s := S80) S80.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S80.size a ≤ S80.size a
  hwx0_11 : ∀ i : grid0.Coords, EltTy.bits .f32 = 32 ∨ (Rect.block (s := S80) S80.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S40.size a ≤ S40.size a
  hwx0_12 : ∀ i : grid0.Coords, EltTy.bits .f32 = 32 ∨ (Rect.block (s := S40) S40.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S40.size a ≤ S40.size a
  hwx0_13 : ∀ i : grid0.Coords, EltTy.bits .f32 = 32 ∨ (Rect.block (s := S40) S40.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x1x40.size a ≤ S1x1x40.size a
  hwx0_14 : ∀ i : grid0.Coords, EltTy.bits .f32 = 32 ∨ (Rect.block (s := S1x1x40) S1x1x40.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1.size a ≤ S1.size a
  hwx0_15 : ∀ i : grid0.Coords, EltTy.bits .f32 = 32 ∨ (Rect.block (s := S1) S1.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S32x1x12.size a ≤ S4096x1x12.size a
  hwx0_16 : ∀ i : grid0.Coords, EltTy.bits .f32 = 32 ∨ (Rect.block (s := S4096x1x12) S32x1x12.size (cc0_transform_16 i) (hinb0_16 i)).WholeWords (EltTy.packing .f32)

variable [Facts₀]

def dot_S32x12_S12x80_S32x80_1_0_0_1_n_n : DotDims S32x12 S12x80 S32x80 where
  lhsContracting := [1]
  rhsContracting := [0]
  lhsNonContracting := [0]
  rhsNonContracting := [1]
  lhsBatch := []
  rhsBatch := []
  wf := dot_S32x12_S12x80_S32x80_1_0_0_1_n_n_wf
def dot_S6400x12_S12x80_S6400x80_1_0_0_1_n_n : DotDims S6400x12 S12x80 S6400x80 where
  lhsContracting := [1]
  rhsContracting := [0]
  lhsNonContracting := [0]
  rhsNonContracting := [1]
  lhsBatch := []
  rhsBatch := []
  wf := dot_S6400x12_S12x80_S6400x80_1_0_0_1_n_n_wf
def dot_S6400x80_S80x40_S6400x40_1_0_0_1_n_n : DotDims S6400x80 S80x40 S6400x40 where
  lhsContracting := [1]
  rhsContracting := [0]
  lhsNonContracting := [0]
  rhsNonContracting := [1]
  lhsBatch := []
  rhsBatch := []
  wf := dot_S6400x80_S80x40_S6400x40_1_0_0_1_n_n_wf

abbrev win0_0 : Pipeline.Window sig grid0 :=
  Pipeline.Window.ofSpec (Memref.whole main_arg0) S32x1x12.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x200x12.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S12x80.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S12x80.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S12x80.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S80.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10) S80x40.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S40.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg7) S80.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg8) S40.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg9) S80.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg10) S80.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg11) S40.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg12) S40.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v12) S1x1x40.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg14) S1.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v13) S32x1x12.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

class Facts : Prop extends Facts₀ where

variable [Facts]
-- ==== ReferenceIdeal.lean ====
abbrev S4096x1x12 : Shape := ⟨3, ![4096, 1, 12]⟩
abbrev S4096x200x12 : Shape := ⟨3, ![4096, 200, 12]⟩
abbrev S4096x200 : Shape := ⟨2, ![4096, 200]⟩
abbrev S48x80 : Shape := ⟨2, ![48, 80]⟩
abbrev S80 : Shape := ⟨1, ![80]⟩
abbrev S80x40 : Shape := ⟨2, ![80, 40]⟩
abbrev S40 : Shape := ⟨1, ![40]⟩
abbrev S40x1 : Shape := ⟨2, ![40, 1]⟩
abbrev S1 : Shape := ⟨1, ![1]⟩
abbrev S4096x200x48 : Shape := ⟨3, ![4096, 200, 48]⟩
abbrev S4096x200x80 : Shape := ⟨3, ![4096, 200, 80]⟩
abbrev S1x1x80 : Shape := ⟨3, ![1, 1, 80]⟩
abbrev S_ : Shape := ⟨0, ![]⟩
abbrev S4096x200x40 : Shape := ⟨3, ![4096, 200, 40]⟩
abbrev S1x1x40 : Shape := ⟨3, ![1, 1, 40]⟩
abbrev S4096x200x1 : Shape := ⟨3, ![4096, 200, 1]⟩
abbrev S1x1x1 : Shape := ⟨3, ![1, 1, 1]⟩
abbrev S4096x1x200 : Shape := ⟨3, ![4096, 1, 200]⟩

abbrev nBuf : Space → Nat
  | .hbm => 85
  | .vmem => 0
  | .smem => 0
  | _ => 0

abbrev bufTy : (tb : Table) → Fin (tcTables nBuf tb) → BufTy
  | .hbm, ⟨0, _⟩ => ⟨S4096x1x12, .f32⟩
  | .hbm, ⟨1, _⟩ => ⟨S4096x200x12, .f32⟩
  | .hbm, ⟨2, _⟩ => ⟨S4096x200, .i1⟩
  | .hbm, ⟨3, _⟩ => ⟨S48x80, .f32⟩
  | .hbm, ⟨4, _⟩ => ⟨S80, .f32⟩
  | .hbm, ⟨5, _⟩ => ⟨S80x40, .f32⟩
  | .hbm, ⟨6, _⟩ => ⟨S40, .f32⟩
  | .hbm, ⟨7, _⟩ => ⟨S80, .f32⟩
  | .hbm, ⟨8, _⟩ => ⟨S40, .f32⟩
  | .hbm, ⟨9, _⟩ => ⟨S80, .f32⟩
  | .hbm, ⟨10, _⟩ => ⟨S80, .f32⟩
  | .hbm, ⟨11, _⟩ => ⟨S40, .f32⟩
  | .hbm, ⟨12, _⟩ => ⟨S40, .f32⟩
  | .hbm, ⟨13, _⟩ => ⟨S40x1, .f32⟩
  | .hbm, ⟨14, _⟩ => ⟨S1, .f32⟩
  | .hbm, ⟨15, _⟩ => ⟨S4096x200x12, .f32⟩
  | .hbm, ⟨16, _⟩ => ⟨S4096x200x12, .f32⟩
  | .hbm, ⟨17, _⟩ => ⟨S4096x200x12, .f32⟩
  | .hbm, ⟨18, _⟩ => ⟨S4096x200x48, .f32⟩
  | .hbm, ⟨19, _⟩ => ⟨S4096x200x80, .f32⟩
  | .hbm, ⟨20, _⟩ => ⟨S1x1x80, .f32⟩
  | .hbm, ⟨21, _⟩ => ⟨S4096x200x80, .f32⟩
  | .hbm, ⟨22, _⟩ => ⟨S4096x200x80, .f32⟩
  | .hbm, ⟨23, _⟩ => ⟨S1x1x80, .f32⟩
  | .hbm, ⟨24, _⟩ => ⟨S4096x200x80, .f32⟩
  | .hbm, ⟨25, _⟩ => ⟨S4096x200x80, .f32⟩
  | .hbm, ⟨26, _⟩ => ⟨S_, .f32⟩
  | .hbm, ⟨27, _⟩ => ⟨S80, .f32⟩
  | .hbm, ⟨28, _⟩ => ⟨S80, .f32⟩
  | .hbm, ⟨29, _⟩ => ⟨S80, .f32⟩
  | .hbm, ⟨30, _⟩ => ⟨S1x1x80, .f32⟩
  | .hbm, ⟨31, _⟩ => ⟨S4096x200x80, .f32⟩
  | .hbm, ⟨32, _⟩ => ⟨S4096x200x80, .f32⟩
  | .hbm, ⟨33, _⟩ => ⟨S4096x200x80, .f32⟩
  | .hbm, ⟨34, _⟩ => ⟨S4096x200x80, .f32⟩
  | .hbm, ⟨35, _⟩ => ⟨S_, .f32⟩
  | .hbm, ⟨36, _⟩ => ⟨S4096x200x80, .f32⟩
  | .hbm, ⟨37, _⟩ => ⟨S4096x200x80, .f32⟩
  | .hbm, ⟨38, _⟩ => ⟨S_, .f32⟩
  | .hbm, ⟨39, _⟩ => ⟨S4096x200x80, .f32⟩
  | .hbm, ⟨40, _⟩ => ⟨S4096x200x80, .f32⟩
  | .hbm, ⟨41, _⟩ => ⟨S_, .f32⟩
  | .hbm, ⟨42, _⟩ => ⟨S4096x200x80, .f32⟩
  | .hbm, ⟨43, _⟩ => ⟨S4096x200x80, .f32⟩
  | .hbm, ⟨44, _⟩ => ⟨S1x1x80, .f32⟩
  | .hbm, ⟨45, _⟩ => ⟨S4096x200x80, .f32⟩
  | .hbm, ⟨46, _⟩ => ⟨S4096x200x80, .f32⟩
  | .hbm, ⟨47, _⟩ => ⟨S4096x200x80, .f32⟩
  | .hbm, ⟨48, _⟩ => ⟨S4096x200x80, .f32⟩
  | .hbm, ⟨49, _⟩ => ⟨S4096x200x40, .f32⟩
  | .hbm, ⟨50, _⟩ => ⟨S1x1x40, .f32⟩
  | .hbm, ⟨51, _⟩ => ⟨S4096x200x40, .f32⟩
  | .hbm, ⟨52, _⟩ => ⟨S4096x200x40, .f32⟩
  | .hbm, ⟨53, _⟩ => ⟨S1x1x40, .f32⟩
  | .hbm, ⟨54, _⟩ => ⟨S4096x200x40, .f32⟩
  | .hbm, ⟨55, _⟩ => ⟨S4096x200x40, .f32⟩
  | .hbm, ⟨56, _⟩ => ⟨S_, .f32⟩
  | .hbm, ⟨57, _⟩ => ⟨S40, .f32⟩
  | .hbm, ⟨58, _⟩ => ⟨S40, .f32⟩
  | .hbm, ⟨59, _⟩ => ⟨S40, .f32⟩
  | .hbm, ⟨60, _⟩ => ⟨S1x1x40, .f32⟩
  | .hbm, ⟨61, _⟩ => ⟨S4096x200x40, .f32⟩
  | .hbm, ⟨62, _⟩ => ⟨S4096x200x40, .f32⟩
  | .hbm, ⟨63, _⟩ => ⟨S4096x200x40, .f32⟩
  | .hbm, ⟨64, _⟩ => ⟨S4096x200x40, .f32⟩
  | .hbm, ⟨65, _⟩ => ⟨S_, .f32⟩
  | .hbm, ⟨66, _⟩ => ⟨S4096x200x40, .f32⟩
  | .hbm, ⟨67, _⟩ => ⟨S4096x200x40, .f32⟩
  | .hbm, ⟨68, _⟩ => ⟨S_, .f32⟩
  | .hbm, ⟨69, _⟩ => ⟨S4096x200x40, .f32⟩
  | .hbm, ⟨70, _⟩ => ⟨S4096x200x40, .f32⟩
  | .hbm, ⟨71, _⟩ => ⟨S_, .f32⟩
  | .hbm, ⟨72, _⟩ => ⟨S4096x200x40, .f32⟩
  | .hbm, ⟨73, _⟩ => ⟨S4096x200x40, .f32⟩
  | .hbm, ⟨74, _⟩ => ⟨S1x1x40, .f32⟩
  | .hbm, ⟨75, _⟩ => ⟨S4096x200x40, .f32⟩
  | .hbm, ⟨76, _⟩ => ⟨S4096x200x40, .f32⟩
  | .hbm, ⟨77, _⟩ => ⟨S4096x200x40, .f32⟩
  | .hbm, ⟨78, _⟩ => ⟨S4096x200x40, .f32⟩
  | .hbm, ⟨79, _⟩ => ⟨S4096x200x1, .f32⟩
  | .hbm, ⟨80, _⟩ => ⟨S1x1x1, .f32⟩
  | .hbm, ⟨81, _⟩ => ⟨S4096x200x1, .f32⟩
  | .hbm, ⟨82, _⟩ => ⟨S4096x200x1, .f32⟩
  | .hbm, ⟨83, _⟩ => ⟨S4096x1x200, .f32⟩
  | .hbm, ⟨84, _⟩ => ⟨S4096x1x12, .f32⟩
  | _, _ => ⟨S4096x1x12, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_0 : Ref sig .tc := ⟨.hbm, 35, rfl⟩
abbrev main_v19 : Ref sig .tc := ⟨.hbm, 36, rfl⟩
abbrev main_v20 : Ref sig .tc := ⟨.hbm, 37, rfl⟩
abbrev main_cst_1 : Ref sig .tc := ⟨.hbm, 38, rfl⟩
abbrev main_v21 : Ref sig .tc := ⟨.hbm, 39, rfl⟩
abbrev main_v22 : Ref sig .tc := ⟨.hbm, 40, rfl⟩
abbrev main_cst_2 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_3 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_4 : Ref sig .tc := ⟨.hbm, 65, rfl⟩
abbrev main_v45 : Ref sig .tc := ⟨.hbm, 66, rfl⟩
abbrev main_v46 : Ref sig .tc := ⟨.hbm, 67, rfl⟩
abbrev main_cst_5 : Ref sig .tc := ⟨.hbm, 68, rfl⟩
abbrev main_v47 : Ref sig .tc := ⟨.hbm, 69, rfl⟩
abbrev main_v48 : Ref sig .tc := ⟨.hbm, 70, rfl⟩
abbrev main_cst_6 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩

abbrev nD : Nat := 1
abbrev τ : Topo := Topo.v7x

variable {F : FTy → Type} [FloatOps F]

class Facts₀ : Prop where
  bcast_S4096x1x12_S4096x200x12_0_1_2 : S4096x1x12.BroadcastsInDim S4096x200x12 (![0, 1, 2] : Fin 3 → Fin S4096x200x12.rank)
  concatenates_S4096x200x12_S4096x200x12_S4096x200x12_S4096x200x12_S4096x200x48_d2 : Shape.Concatenates [S4096x200x12, S4096x200x12, S4096x200x12, S4096x200x12] S4096x200x48 2
  bcast_S80_S1x1x80_2 : S80.BroadcastsInDim S1x1x80 (![2] : Fin 1 → Fin S1x1x80.rank)
  bcast_S1x1x80_S4096x200x80_0_1_2 : S1x1x80.BroadcastsInDim S4096x200x80 (![0, 1, 2] : Fin 3 → Fin S4096x200x80.rank)
  bcast_S_S80 : S_.BroadcastsInDim S80 (![] : Fin 0 → Fin S80.rank)
  bcast_S_S4096x200x80 : S_.BroadcastsInDim S4096x200x80 (![] : Fin 0 → Fin S4096x200x80.rank)
  bcast_S40_S1x1x40_2 : S40.BroadcastsInDim S1x1x40 (![2] : Fin 1 → Fin S1x1x40.rank)
  bcast_S1x1x40_S4096x200x40_0_1_2 : S1x1x40.BroadcastsInDim S4096x200x40 (![0, 1, 2] : Fin 3 → Fin S4096x200x40.rank)
  bcast_S_S40 : S_.BroadcastsInDim S40 (![] : Fin 0 → Fin S40.rank)
  bcast_S_S4096x200x40 : S_.BroadcastsInDim S4096x200x40 (![] : Fin 0 → Fin S4096x200x40.rank)
  bcast_S1_S1x1x1_2 : S1.BroadcastsInDim S1x1x1 (![2] : Fin 1 → Fin S1x1x1.rank)
  bcast_S1x1x1_S4096x200x1_0_1_2 : S1x1x1.BroadcastsInDim S4096x200x1 (![0, 1, 2] : Fin 3 → Fin S4096x200x1.rank)
  transposes_S4096x200x1_S4096x1x200_0_2_1 : S4096x200x1.Transposes [0, 2, 1] S4096x1x200
  dot_S4096x200x48_S48x80_S4096x200x80_2_0_01_1_n_n_wf : DotDims.WF S4096x200x48 S48x80 S4096x200x80 [2] [0] [0, 1] [1] [] []
  dot_S4096x200x80_S80x40_S4096x200x40_2_0_01_1_n_n_wf : DotDims.WF S4096x200x80 S80x40 S4096x200x40 [2] [0] [0, 1] [1] [] []
  dot_S4096x200x40_S40x1_S4096x200x1_2_0_01_1_n_n_wf : DotDims.WF S4096x200x40 S40x1 S4096x200x1 [2] [0] [0, 1] [1] [] []
  dot_S4096x1x200_S4096x200x12_S4096x1x12_2_1_1_2_0_0_wf : DotDims.WF S4096x1x200 S4096x200x12 S4096x1x12 [2] [1] [1] [2] [0] [0]

variable [Facts₀]

def dot_S4096x200x48_S48x80_S4096x200x80_2_0_01_1_n_n : DotDims S4096x200x48 S48x80 S4096x200x80 where
  lhsContracting := [2]
  rhsContracting := [0]
  lhsNonContracting := [0, 1]
  rhsNonContracting := [1]
  lhsBatch := []
  rhsBatch := []
  wf := dot_S4096x200x48_S48x80_S4096x200x80_2_0_01_1_n_n_wf
def dot_S4096x200x80_S80x40_S4096x200x40_2_0_01_1_n_n : DotDims S4096x200x80 S80x40 S4096x200x40 where
  lhsContracting := [2]
  rhsContracting := [0]
  lhsNonContracting := [0, 1]
  rhsNonContracting := [1]
  lhsBatch := []
  rhsBatch := []
  wf := dot_S4096x200x80_S80x40_S4096x200x40_2_0_01_1_n_n_wf
def dot_S4096x200x40_S40x1_S4096x200x1_2_0_01_1_n_n : DotDims S4096x200x40 S40x1 S4096x200x1 where
  lhsContracting := [2]
  rhsContracting := [0]
  lhsNonContracting := [0, 1]
  rhsNonContracting := [1]
  lhsBatch := []
  rhsBatch := []
  wf := dot_S4096x200x40_S40x1_S4096x200x1_2_0_01_1_n_n_wf
def dot_S4096x1x200_S4096x200x12_S4096x1x12_2_1_1_2_0_0 : DotDims S4096x1x200 S4096x200x12 S4096x1x12 where
  lhsContracting := [2]
  rhsContracting := [1]
  lhsNonContracting := [1]
  rhsNonContracting := [2]
  lhsBatch := [0]
  rhsBatch := [0]
  wf := dot_S4096x1x200_S4096x200x12_S4096x1x12_2_1_1_2_0_0_wf

class Facts : Prop extends Facts₀ where

variable [Facts]
-- ==== Proof.Spec.lean ====
/-
  The local activation unit's arithmetic on the extended reals, one batch row at a time.

  For a query row q (12 features) and 200 key rows k_t the unit scores each key by a two-layer gated network and
  returns Σ_t score_t · k_t.  The first layer sees the joined features (q, k, q − k, q · k) through a 48 × 80 weight
  matrix w; taken in four stretches of twelve rows it is
      Σ_e q_e·w(e) + Σ_e k_e·w(12+e) + Σ_e (q_e − k_e)·w(24+e) + Σ_e (q_e·k_e)·w(36+e),
  and, collecting the q-terms and the k-terms,
      Σ_e k_e·(w(12+e) − w(24+e)) + Σ_e (q_e·k_e)·w(36+e) + Σ_e q_e·(w(e) + w(24+e)).
  The two are equal when q, k and w are real numbers (the distributive law fails at the infinities).
  The gate is x·(p + α·(1 − p)) with p = logistic((x − μ)·rsqrt(v + ε)); the logistic is 1/(1 + e^(−z)).
-/
import Mathlib.Algebra.BigOperators.Fin
import Idealize.ShloMosaic.PureOps.Ideal

noncomputable section

namespace Cert.ActUnit

open Idealize.ShloMosaic

/-- The gate's ε, as its f32 word. -/
abbrev epsW : EReal := Ideal.ofBits .f32 0x3089705F#32

/-- The f32 word of 1.0. -/
abbrev oneW : EReal := Ideal.ofBits .f32 0x3F800000#32

/-- The word 1.0 is the number one. -/
theorem oneW_eq : oneW = 1 := by
  have h : Ideal.ofBits .f32 0x3F800000#32 = ((1 : ℝ) : EReal) := by
    simp [Ideal.ofBits, Ideal.ieee, -EReal.coe_mul]; norm_num
  exact h.trans EReal.coe_one

/-- The gate x·(p + α·(1 − p)), p = logistic((x − μ)·rsqrt(v + ε)). -/
def gate (x a mu v : EReal) : EReal :=
  x * (Ideal.logistic ((x - mu) * Ideal.rsqrt (v + epsW))
    + a * (oneW - Ideal.logistic ((x - mu) * Ideal.rsqrt (v + epsW))))

/-- The gate with its logistic spelt 1/(1 + e^(−z)) over the word 1.0. -/
theorem gate_spelt (x a mu v : EReal) :
    x * (Ideal.div oneW (oneW + Ideal.exp (-((x - mu) * Ideal.rsqrt (v + epsW))))
      + a * (oneW - Ideal.div oneW (oneW + Ideal.exp (-((x - mu) * Ideal.rsqrt (v + epsW))))))
      = gate x a mu v := by
  unfold gate Ideal.logistic
  rw [oneW_eq]

/-- Everything after the first layer's sums: the two gates' parameters, the second layer, the scoring vector. -/
structure Tail where
  al0 : Fin 80 → EReal
  mm0 : Fin 80 → EReal
  mv0 : Fin 80 → EReal
  w1 : Fin 80 → Fin 40 → EReal
  b1 : Fin 40 → EReal
  al1 : Fin 40 → EReal
  mm1 : Fin 40 → EReal
  mv1 : Fin 40 → EReal
  ak : Fin 40 → EReal
  ab : EReal

/-- One key's score from its first-layer sums h. -/
def score (P : Tail) (h : Fin 80 → EReal) : EReal :=
  (∑ j : Fin 40,
      gate ((∑ i : Fin 80, gate (h i) (P.al0 i) (P.mm0 i) (P.mv0 i) * P.w1 i j) + P.b1 j) (P.al1 j) (P.mm1 j) (P.mv1 j)
        * P.ak j) + P.ab

/-- The first layer with its weights collected by operand: one 12 × 80 matrix each for q, k and q·k, and the bias. -/
structure Layer0 where
  wq : Fin 12 → Fin 80 → EReal
  wk : Fin 12 → Fin 80 → EReal
  wqk : Fin 12 → Fin 80 → EReal
  b0 : Fin 80 → EReal

/-- The first layer's sums in the collected form. -/
def pre0 (L : Layer0) (q k : Fin 12 → EReal) (o : Fin 80) : EReal :=
  ((∑ e : Fin 12, k e * L.wk e o) + (∑ e : Fin 12, (q e * k e) * L.wqk e o)) + (∑ e : Fin 12, q e * L.wq e o) + L.b0 o

/-- One output row: Σ_t score_t · k_t. -/
def rowOut (L : Layer0) (P : Tail) (q : Fin 12 → EReal) (k : Fin 200 → Fin 12 → EReal) (e : Fin 12) : EReal :=
  ∑ t : Fin 200, score P (pre0 L q (k t)) * k t e

/-- The 48 × 80 weight matrix collected by operand. -/
def collect (w : Fin 48 → Fin 80 → EReal) (b0 : Fin 80 → EReal) : Layer0 where
  wq e o := w ⟨e.val, by omega⟩ o + w ⟨24 + e.val, by omega⟩ o
  wk e o := w ⟨12 + e.val, by omega⟩ o - w ⟨24 + e.val, by omega⟩ o
  wqk e o := w ⟨36 + e.val, by omega⟩ o
  b0 := b0

/-- The first layer's sums in the joined form: the four stretches of the 48 joined features. -/
def pre0Joined (w : Fin 48 → Fin 80 → EReal) (b0 : Fin 80 → EReal) (q k : Fin 12 → EReal) (o : Fin 80) : EReal :=
  ((((∑ e : Fin 12, q e * w ⟨e.val, by omega⟩ o) + (∑ e : Fin 12, k e * w ⟨12 + e.val, by omega⟩ o))
      + (∑ e : Fin 12, (q e - k e) * w ⟨24 + e.val, by omega⟩ o))
      + (∑ e : Fin 12, (q e * k e) * w ⟨36 + e.val, by omega⟩ o)) + b0 o

/-- An extended real that is a real number. -/
def IsReal (x : EReal) : Prop := ∃ r : ℝ, x = (r : EReal)

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- On real numbers the joined form and the collected form of the first layer agree. -/
theorem pre0Joined_eq (w : Fin 48 → Fin 80 → EReal) (b0 : Fin 80 → EReal) (q k : Fin 12 → EReal) (o : Fin 80)
    (hw : ∀ i o, IsReal (w i o)) (hq : ∀ e, IsReal (q e)) (hk : ∀ e, IsReal (k e)) :
    pre0Joined w b0 q k o = pre0 (collect w b0) q k o := by
  choose wr hwr using hw
  choose qr hqr using hq
  choose kr hkr using hk
  unfold pre0Joined pre0 collect
  refine congrArg (· + b0 o) ?_
  simp only [hwr, hqr, hkr, ← EReal.coe_mul, ← EReal.coe_sub, ← EReal.coe_add, ← coe_sum]
  refine congrArg _ ?_
  simp only [← Finset.sum_add_distrib]
  exact Finset.sum_congr rfl fun e _ => by ring

end Cert.ActUnit

end
-- ==== Proof.SpecArrays.lean ====
/-
  The unit's result as one function of whole arrays: a query array [4096, 1, 12] and a key array [4096, 200, 12] give the
  result array [4096, 1, 12] whose row b is the unit's output for query row b and its 200 key rows.  The parameters are
  read off arrays of their literal shapes.
-/
import proofs.«179337_j33956011442642_2_alg».proof.Proof.Spec
import Idealize.ShloMosaic.Lib.ValueIdx

noncomputable section

namespace Cert.ActUnit

open Idealize.ShloMosaic Idealize.ShloMosaic.ValueIdx

/-- The collected first layer read off three 12 × 80 matrices and a bias vector. -/
def layer0Of (wq wk wqk : (⟨2, ![12, 80]⟩ : Shape).Idx → EReal) (b0 : (⟨1, ![80]⟩ : Shape).Idx → EReal) : Layer0 where
  wq e o := wq (ix2 e o)
  wk e o := wk (ix2 e o)
  wqk e o := wqk (ix2 e o)
  b0 o := b0 (ix1 o)

/-- The gates, the second layer and the scoring vector read off arrays of their shapes. -/
def tailOf (al0 mm0 mv0 : (⟨1, ![80]⟩ : Shape).Idx → EReal) (w1 : (⟨2, ![80, 40]⟩ : Shape).Idx → EReal)
    (b1 al1 mm1 mv1 : (⟨1, ![40]⟩ : Shape).Idx → EReal) (ak : Fin 40 → EReal) (ab : EReal) : Tail where
  al0 i := al0 (ix1 i)
  mm0 i := mm0 (ix1 i)
  mv0 i := mv0 (ix1 i)
  w1 i j := w1 (ix2 i j)
  b1 j := b1 (ix1 j)
  al1 j := al1 (ix1 j)
  mm1 j := mm1 (ix1 j)
  mv1 j := mv1 (ix1 j)
  ak := ak
  ab := ab

/-- The result array: row b is the unit's output for query row b and key rows (b, ·). -/
def result (L : Layer0) (P : Tail) (q : (⟨3, ![4096, 1, 12]⟩ : Shape).Idx → EReal)
    (k : (⟨3, ![4096, 200, 12]⟩ : Shape).Idx → EReal) : (⟨3, ![4096, 1, 12]⟩ : Shape).Idx → EReal :=
  fun i => rowOut L P (fun e => q (ix3 (i 0) (0 : Fin 1) e)) (fun t e => k (ix3 (i 0) t e)) (i 2)

/-- The result array from the unit's arrays as given: the 48 × 80 first-layer matrix collected by operand, the 40 × 1
    scoring matrix read as a vector, the one-entry score bias read as a number. -/
def unitResult (q : (⟨3, ![4096, 1, 12]⟩ : Shape).Idx → EReal) (k : (⟨3, ![4096, 200, 12]⟩ : Shape).Idx → EReal)
    (w0 : (⟨2, ![48, 80]⟩ : Shape).Idx → EReal) (b0 : (⟨1, ![80]⟩ : Shape).Idx → EReal)
    (w1 : (⟨2, ![80, 40]⟩ : Shape).Idx → EReal) (b1 : (⟨1, ![40]⟩ : Shape).Idx → EReal)
    (al0 : (⟨1, ![80]⟩ : Shape).Idx → EReal) (al1 : (⟨1, ![40]⟩ : Shape).Idx → EReal)
    (mm0 mv0 : (⟨1, ![80]⟩ : Shape).Idx → EReal) (mm1 mv1 : (⟨1, ![40]⟩ : Shape).Idx → EReal)
    (akm : (⟨2, ![40, 1]⟩ : Shape).Idx → EReal) (ab : (⟨1, ![1]⟩ : Shape).Idx → EReal) :
    (⟨3, ![4096, 1, 12]⟩ : Shape).Idx → EReal :=
  result (collect (fun i o => w0 (ix2 i o)) (fun o => b0 (ix1 o)))
    (tailOf al0 mm0 mv0 w1 b1 al1 mm1 mv1 (fun j => akm (ix2 j (0 : Fin 1))) (ab (ix1 (0 : Fin 1)))) q k

end Cert.ActUnit

end
-- ==== Proof.LibStackLayout.lean ====
/-
  Unit axes of a stack of matrices, added, dropped and broadcast, each read at an index given by coordinates.

  A vector [c] is viewed as [1, 1, c]; a stack with a unit middle axis [a, 1, c] is viewed as the matrix [a, c]; a matrix
  [a, b] is viewed as the stack [a, b, 1] and back; and a stack [a, b, 1] is broadcast along its last axis to [a, b, c].
  A shape cast keeps the row-major position; a broadcast reads coordinate 0 on the operand's unit axes.
  Nothing here mentions a program.
-/
import Idealize.ShloMosaic.Lib.ValueLayout

namespace Cert.Lib.StackLayout

open Idealize.ShloMosaic Idealize.ShloMosaic.ValueIdx

variable {α : Type}

/-- A vector `[c]` viewed as `[1, 1, c]` reads, at `(u, v, k)`, the vector's entry `k`. -/
theorem cast_c_11c_apply {c : ℕ} (x : (⟨1, ![c]⟩ : Shape).Idx → α)
    (h : (⟨1, ![c]⟩ : Shape).ShapeCasts ⟨3, ![1, 1, c]⟩) (u v : Fin 1) (k : Fin c) :
    shapeCast ⟨3, ![1, 1, c]⟩ x h (ix3 u v k) = x (ix1 k) :=
  shapeCast_apply x h _ _ (by
    have hu : u.val = 0 := by omega
    have hv : v.val = 0 := by omega
    rw [Shape.rowMajor_val_three, Shape.rowMajor_val_one]
    show k.val = (u.val * 1 + v.val) * c + k.val
    rw [hu, hv]; omega)

/-- A `[1, 1, c]` array broadcast to `[a, b, c]` reads, at `(i, j, k)`, the operand at `(0, 0, k)`. -/
theorem bcast_11c_abc_apply {a b c : ℕ} (v : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ v h (ix3 i j k) = v (ix3 (0 : Fin 1) (0 : Fin 1) k) := by
  refine broadcastTo_apply v h (ix3 i j k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

/-- A vector `[c]` viewed as `[1, 1, c]` and broadcast to `[a, b, c]` reads, at `(i, j, k)`, the vector's entry `k`. -/
theorem vec_over_stack_apply {a b c : ℕ} (x : (⟨1, ![c]⟩ : Shape).Idx → α)
    (h1 : (⟨1, ![c]⟩ : Shape).ShapeCasts ⟨3, ![1, 1, c]⟩) (h2 : (⟨3, ![1, 1, c]⟩ : Shape).Broadcasts ⟨3, ![a, b, c]⟩)
    (i : Fin a) (j : Fin b) (k : Fin c) :
    broadcastTo ⟨3, ![a, b, c]⟩ (shapeCast ⟨3, ![1, 1, c]⟩ x h1) h2 (ix3 i j k) = x (ix1 k) :=
  (bcast_11c_abc_apply _ h2 i j k).trans (cast_c_11c_apply x h1 0 0 k)

/-- An `[a, 1, c]` stack viewed as the matrix `[a, c]` reads, at `(i, k)`, the stack at `(i, 0, k)`. -/
theorem cast_a1c_ac_apply {a c : ℕ} (x : (⟨3, ![a, 1, c]⟩ : Shape).Idx → α)
    (h : (⟨3, ![a, 1, c]⟩ : Shape).ShapeCasts ⟨2, ![a, c]⟩) (i : Fin a) (k : Fin c) :
    shapeCast ⟨2, ![a, c]⟩ x h (ix2 i k) = x (ix3 i (0 : Fin 1) k) :=
  shapeCast_apply x h _ _ (by
    rw [Shape.rowMajor_val_three, Shape.rowMajor_val_two]
    show (i.val * 1 + 0) * c + k.val = i.val * c + k.val
    rw [Nat.mul_one, Nat.add_zero])

/-- A matrix `[a, b]` viewed as the stack `[a, b, 1]` reads, at `(i, j, u)`, the matrix at `(i, j)`. -/
theorem cast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- A stack `[a, b, 1]` viewed as the matrix `[a, b]` reads, at `(i, j)`, the stack at `(i, j, 0)`. -/
theorem cast_ab1_ab_apply {a b : ℕ} (x : (⟨3, ![a, b, 1]⟩ : Shape).Idx → α)
    (h : (⟨3, ![a, b, 1]⟩ : Shape).ShapeCasts ⟨2, ![a, b]⟩) (i : Fin a) (j : Fin b) :
    shapeCast ⟨2, ![a, b]⟩ x h (ix2 i j) = x (ix3 i j (0 : Fin 1)) :=
  shapeCast_apply x h _ _ (by
    rw [Shape.rowMajor_val_three, Shape.rowMajor_val_two]
    show (i.val * b + j.val) * 1 + 0 = i.val * b + j.val
    rw [Nat.mul_one, Nat.add_zero])

/-- A stack `[a, b, 1]` broadcast to `[a, b, c]` reads, at `(i, j, k)`, the operand at `(i, j, 0)`. -/
theorem bcast_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

end Cert.Lib.StackLayout
-- ==== Proof.LibOuterSumLayout.lean ====
/-
  Layout operations of a broadcast outer sum flattened to rows, each read at an index given by coordinates.

  A matrix `[a, c]` becomes a stack `[a, 1, c]` by a shape cast; a stack with a unit middle axis `[a, 1, c]`, or a
  unit leading axis `[1, b, c]`, is broadcast to `[a, b, c]`; and a stack `[a, b, c]` is flattened to the matrix
  `[a · b, c]` whose row `i · b + j` is the stack's row `(i, j)`, or a matrix of `a · b` rows is folded back.
  A shape cast keeps the row-major position; a broadcast reads coordinate `0` on the operand's unit axes.
-/
import Idealize.ShloMosaic.Lib.ValueLayout

namespace Idealize.ShloMosaic.ValueIdx

open Idealize.ShloMosaic

variable {α : Type}

/-- An `[a, c]` array cast to `[a, 1, c]` reads, at `(i, u, k)`, the operand at `(i, k)`, whatever the unit
    coordinate `u`. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (k : Fin c) :
    shapeCast ⟨3, ![a, 1, c]⟩ x h (ix3 i u k) = x (ix2 i k) :=
  shapeCast_apply x h _ _ (by
    have hu : u.val = 0 := by omega
    rw [Shape.rowMajor_val_three, Shape.rowMajor_val_two]
    show i.val * c + k.val = (i.val * 1 + u.val) * c + k.val
    rw [hu, Nat.mul_one, Nat.add_zero])

/-- An `[a, 1, c]` array broadcast to `[a, b, c]` reads, at `(i, j, k)`, the operand at `(i, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- A `[1, b, c]` array broadcast to `[a, b, c]` reads, at `(i, j, k)`, the operand at `(0, j, k)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- An `[a, b, c]` stack flattened to `[n, c]` (`n = a · b`) reads, at row `r = i · b + j` and column `k`, the
    stack at `(i, j, k)`. -/
theorem shapeCast_abc_nc_apply {a b c n : ℕ} (x : (⟨3, ![a, b, c]⟩ : Shape).Idx → α)
    (h : (⟨3, ![a, b, c]⟩ : Shape).ShapeCasts ⟨2, ![n, c]⟩) (r : Fin n) (i : Fin a) (j : Fin b) (k : Fin c)
    (hr : r.val = i.val * b + j.val) :
    shapeCast ⟨2, ![n, c]⟩ x h (ix2 r k) = x (ix3 i j k) :=
  shapeCast_apply x h _ _ (by
    rw [Shape.rowMajor_val_three, Shape.rowMajor_val_two]
    show (i.val * b + j.val) * c + k.val = r.val * c + k.val
    rw [hr])

/-- An `[n, c]` matrix (`n = a · b`) folded to the stack `[a, b, c]` reads, at `(i, j, k)`, the matrix at row
    `r = i · b + j` and column `k`. -/
theorem shapeCast_nc_abc_apply {a b c n : ℕ} (x : (⟨2, ![n, c]⟩ : Shape).Idx → α)
    (h : (⟨2, ![n, c]⟩ : Shape).ShapeCasts ⟨3, ![a, b, c]⟩) (r : Fin n) (i : Fin a) (j : Fin b) (k : Fin c)
    (hr : r.val = i.val * b + j.val) :
    shapeCast ⟨3, ![a, b, c]⟩ x h (ix3 i j k) = x (ix2 r k) :=
  shapeCast_apply x h _ _ (by
    rw [Shape.rowMajor_val_three, Shape.rowMajor_val_two]
    show r.val * c + k.val = (i.val * b + j.val) * c + k.val
    rw [hr])

end Idealize.ShloMosaic.ValueIdx
-- ==== Proof.LibMiddleSum.lean ====
/-
  A sum over the middle axis of a rank-3 block, read at an entry.

  The f32 lane sum of an [a, b, c] vector over axis 1, taken from the zero pattern, is at (p, q) the sum over the b
  coordinates k of the vector at (p, k, q).  The accumulator hypothesis is the one a printed reduction carries
  (the zero word is the sum's neutral pattern).
-/
import Idealize.ShloMosaic.PureOps.Ideal.Laws
import Idealize.ShloMosaic.Lib.ValueIdx

noncomputable section

namespace Cert.MiddleSum

open Idealize.ShloMosaic Idealize.ShloMosaic.ValueIdx

/-- Entry (p, q) of the sum over the middle axis is Σ_k src(p, k, q). -/
theorem middle_sum_apply {a b c : ℕ} (src : FVec Ideal (⟨3, ![a, b, c]⟩ : Shape) .f32)
    (h : (⟨3, ![a, b, c]⟩ : Shape).Reduces [1] (⟨2, ![a, c]⟩ : Shape)) (hφ : FKind.Formats .f32)
    (hacc : (0x00000000#32 : BitVec 32) = FKind.add.neutral .f32 hφ) (p : Fin a) (q : Fin c) :
    multiReduction (F := Ideal) .add [1] (⟨2, ![a, c]⟩ : Shape) src 0x00000000#32 h hφ hacc (ix2 p q)
      = ∑ k : Fin b, src (ix3 p k q) := by
  refine (Ideal.multiReduction_add_single src 0x00000000#32 h hφ hacc (ix2 p q)).trans ?_
  refine Finset.sum_congr rfl fun k _ => congrArg src (funext fun x => Fin.ext ?_)
  match x with
  | ⟨0, _⟩ => rfl
  | ⟨1, _⟩ => rfl
  | ⟨2, _⟩ => rfl

end Cert.MiddleSum

end
-- ==== Proof.LibPlainMatmul.lean ====
/-
  A plain matrix product on the extended reals, read at an entry.

  A `tpu.matmul` of an [m, K] operand by a [K, n] operand — axis 1 of the left contracted with axis 0 of the right, no batch
  axis — accumulated into the f32 zero splat, and the host's `dot_general` of the same form, read at (p, q), are the textbook
  entry  Σ_k l(p, k) · r(k, q).  The dimension
  record is taken in literal form (the six axis lists written out over any well-formedness witness), so a printed record of
  that form is an instance by unfolding its name.  The operands' formats are free: at the ideal values every format is the
  extended reals.
-/
import Idealize.ShloMosaic.PureOps.Ideal.Laws
import Idealize.ShloMosaic.Lib.ValueIdx

noncomputable section

namespace Cert.PlainMatmul

open Idealize.ShloMosaic Idealize.ShloMosaic.ValueIdx

/-- The literal record of a plain [m, K] × [K, n] product. -/
abbrev plain {m K n : ℕ}
    (wf : DotDims.WF (⟨2, ![m, K]⟩ : Shape) (⟨2, ![K, n]⟩ : Shape) (⟨2, ![m, n]⟩ : Shape) [1] [0] [0] [1] [] []) :
    DotDims (⟨2, ![m, K]⟩ : Shape) (⟨2, ![K, n]⟩ : Shape) (⟨2, ![m, n]⟩ : Shape) :=
  { lhsContracting := [1], rhsContracting := [0], lhsNonContracting := [0], rhsNonContracting := [1],
    lhsBatch := [], rhsBatch := [], wf := wf }

section
variable {m K n : ℕ}
  (wf : DotDims.WF (⟨2, ![m, K]⟩ : Shape) (⟨2, ![K, n]⟩ : Shape) (⟨2, ![m, n]⟩ : Shape) [1] [0] [0] [1] [] [])
  (j : (⟨2, ![m, n]⟩ : Shape).Idx) (k : (plain wf).contr.Idx)

/-- The left operand's row is the result's row. -/
theorem lhs_row : ((plain wf).lhsIdx j k 0).val = (j 0).val := by
  unfold DotDims.lhsIdx
  rw [dif_neg (show ¬(0 : Fin (⟨2, ![m, K]⟩ : Shape).rank) ∈ (plain wf).lhsBatch from List.not_mem_nil),
    dif_pos (show (0 : Fin (⟨2, ![m, K]⟩ : Shape).rank) ∈ (plain wf).lhsNonContracting from List.mem_singleton.mpr rfl)]
  rfl

/-- The left operand's column is the contracted coordinate. -/
theorem lhs_col : ((plain wf).lhsIdx j k 1).val = (k ⟨0, Nat.one_pos⟩).val :=
  (plain wf).lhsIdx_val_of_single rfl j k

/-- The right operand's row is the contracted coordinate. -/
theorem rhs_row : ((plain wf).rhsIdx j k 0).val = (k ⟨0, Nat.one_pos⟩).val :=
  (plain wf).rhsIdx_val_of_single rfl j k

/-- The right operand's column is the result's column. -/
theorem rhs_col : ((plain wf).rhsIdx j k 1).val = (j 1).val := by
  unfold DotDims.rhsIdx
  rw [dif_neg (show ¬(1 : Fin (⟨2, ![K, n]⟩ : Shape).rank) ∈ (plain wf).rhsBatch from List.not_mem_nil),
    dif_pos (show (1 : Fin (⟨2, ![K, n]⟩ : Shape).rank) ∈ (plain wf).rhsNonContracting from List.mem_singleton.mpr rfl)]
  rfl

end

/-- The sum over the record's contraction index, re-indexed by the contracted coordinate. -/
theorem contr_sum {m K n : ℕ}
    (wf : DotDims.WF (⟨2, ![m, K]⟩ : Shape) (⟨2, ![K, n]⟩ : Shape) (⟨2, ![m, n]⟩ : Shape) [1] [0] [0] [1] [] [])
    (l : (⟨2, ![m, K]⟩ : Shape).Idx → EReal) (r : (⟨2, ![K, n]⟩ : Shape).Idx → EReal) (p : Fin m) (q : Fin n) :
    (∑ k : (plain wf).contr.Idx, l ((plain wf).lhsIdx (ix2 p q) k) * r ((plain wf).rhsIdx (ix2 p q) k))
      = ∑ k : Fin K, l (ix2 p k) * r (ix2 k q) := by
  rw [← Equiv.sum_comp (contrEquiv1 (plain wf) K rfl rfl).symm]
  refine Finset.sum_congr rfl fun k _ => ?_
  have hk := contrEquiv1_symm_val (plain wf) K rfl rfl k
  have el : (plain wf).lhsIdx (ix2 p q) ((contrEquiv1 (plain wf) K rfl rfl).symm k) = ix2 p k :=
    funext fun a => Fin.ext (by
      match a with
      | ⟨0, _⟩ => exact lhs_row wf _ _
      | ⟨1, _⟩ => exact (lhs_col wf _ _).trans hk)
  have er : (plain wf).rhsIdx (ix2 p q) ((contrEquiv1 (plain wf) K rfl rfl).symm k) = ix2 k q :=
    funext fun a => Fin.ext (by
      match a with
      | ⟨0, _⟩ => exact (rhs_row wf _ _).trans hk
      | ⟨1, _⟩ => exact rhs_col wf _ _)
  rw [el, er]

/-- Entry (p, q) of a kernel's product into the zero splat is the sum over the contracted axis of the entries' products. -/
theorem matmul_zero_apply {m K n : ℕ} {φ₁ φ₂ : FTy}
    (wf : DotDims.WF (⟨2, ![m, K]⟩ : Shape) (⟨2, ![K, n]⟩ : Shape) (⟨2, ![m, n]⟩ : Shape) [1] [0] [0] [1] [] [])
    (prec : Option ContractPrecision)
    (l : FVec Ideal (⟨2, ![m, K]⟩ : Shape) φ₁) (r : FVec Ideal (⟨2, ![K, n]⟩ : Shape) φ₂) (p : Fin m) (q : Fin n) :
    FloatOps.matmul (plain wf) prec l r (constant (⟨2, ![m, n]⟩ : Shape) .f32 0x00000000#32) (ix2 p q)
      = ∑ k : Fin K, l (ix2 p k) * r (ix2 k q) := by
  rw [Ideal.matmul_constant_zero_apply]
  exact contr_sum wf l r p q

/-- Entry (p, q) of the host's `dot_general` of the same form, under any schedule key, is the same sum. -/
theorem dotGeneral_apply {m K n : ℕ} {φ₁ φ₂ : FTy}
    (wf : DotDims.WF (⟨2, ![m, K]⟩ : Shape) (⟨2, ![K, n]⟩ : Shape) (⟨2, ![m, n]⟩ : Shape) [1] [0] [0] [1] [] [])
    (prec : Option ContractPrecision) (sched : HostSchedule)
    (l : FVec Ideal (⟨2, ![m, K]⟩ : Shape) φ₁) (r : FVec Ideal (⟨2, ![K, n]⟩ : Shape) φ₂) (p : Fin m) (q : Fin n) :
    FloatOps.dotGeneral (plain wf) prec sched l r (ix2 p q) = ∑ k : Fin K, l (ix2 p k) * r (ix2 k q) := by
  rw [Ideal.dotGeneral_apply]
  exact contr_sum wf l r p q

end Cert.PlainMatmul

end
-- ==== Proof.KernelLayer0.lean ====
/-
  The kernel's first layer, read at one entry of a block of 32 batch rows.

  Inside a block the 32 × 200 key rows are flattened to 6400 rows (row p·200 + t is key t of batch row p), multiplied by
  the collected 12 × 80 weight matrices, and folded back; the query's product is taken once per batch row and laid over
  its 200 keys; the bias is laid over everything.  At (p, t, o) the result is the collected form of the first layer's sums
  for query row p and key row (p, t).
-/
import proofs.«179337_j33956011442642_2_alg».proof.Proof.Gen.KernelIdeal.Skeleton
import proofs.«179337_j33956011442642_2_alg».proof.Proof.Spec
import proofs.«179337_j33956011442642_2_alg».proof.Proof.LibStackLayout
import proofs.«179337_j33956011442642_2_alg».proof.Proof.LibOuterSumLayout
import proofs.«179337_j33956011442642_2_alg».proof.Proof.LibPlainMatmul
import Idealize.ShloMosaic.Lib.Pipeline.Value

noncomputable section

namespace Cert.KernelIdeal.BlockValue

open Cert.KernelIdeal Cert.KernelIdeal.Gen Idealize.ShloMosaic Idealize.ShloMosaic.ValueIdx
open Cert.ActUnit Cert.Lib.StackLayout Cert.PlainMatmul

/-- A stack of 32 × 200 rows flattened to 6400 rows and multiplied by a 12 × 80 matrix into the zero splat: at row
    r = p·200 + t and column o it is Σ_e X(p, t, e)·W(e, o). -/
theorem flat_matmul_apply (X : FVec Ideal S32x200x12 .f32) (W : FVec Ideal S12x80 .bf16) (p : Fin 32) (t : Fin 200)
    (o : Fin 80) (r : Fin 6400) (hr : r.val = p.val * 200 + t.val) :
    FloatOps.matmul (F := Ideal) dot_S6400x12_S12x80_S6400x80_1_0_0_1_n_n none
        (truncf .bf16 (shapeCast S6400x12 X shapeCasts_S32x200x12_S6400x12) bitsLt_bf16_f32)
        (shapeCast S12x80 W shapeCasts_S12x80_S12x80) (constant S6400x80 .f32 0x00000000#32) (ix2 r o)
      = ∑ e : Fin 12, X (ix3 p t e) * W (ix2 e o) := by
  refine (matmul_zero_apply dot_S6400x12_S12x80_S6400x80_1_0_0_1_n_n_wf none _ _ r o).trans ?_
  refine Finset.sum_congr rfl fun e _ => ?_
  rw [shapeCast_self]
  exact congrArg (· * W (ix2 e o)) (shapeCast_abc_nc_apply X shapeCasts_S32x200x12_S6400x12 r p t e hr)

/-- The query block viewed as a 32 × 12 matrix and multiplied by a 12 × 80 matrix into the zero splat: at (p, o) it is
    Σ_e q(p, 0, e)·W(e, o). -/
theorem query_matmul_apply (q : FVec Ideal S32x1x12 .f32) (W : FVec Ideal S12x80 .bf16) (p : Fin 32) (o : Fin 80) :
    FloatOps.matmul (F := Ideal) dot_S32x12_S12x80_S32x80_1_0_0_1_n_n none
        (truncf .bf16 (shapeCast S32x12 q shapeCasts_S32x1x12_S32x12) bitsLt_bf16_f32)
        (shapeCast S12x80 W shapeCasts_S12x80_S12x80) (constant S32x80 .f32 0x00000000#32) (ix2 p o)
      = ∑ e : Fin 12, q (ix3 p (0 : Fin 1) e) * W (ix2 e o) := by
  refine (matmul_zero_apply dot_S32x12_S12x80_S32x80_1_0_0_1_n_n_wf none _ _ p o).trans ?_
  refine Finset.sum_congr rfl fun e _ => ?_
  rw [shapeCast_self]
  exact congrArg (· * W (ix2 e o)) (cast_a1c_ac_apply q shapeCasts_S32x1x12_S32x12 p e)

/-- The first layer's sums at (p, t, o) of a block: the collected form for query row p and key row (p, t). -/
theorem pay2_apply (q : Vec Ideal S32x1x12 .f32) (k : Vec Ideal S32x200x12 .f32) (wq wk wqk : Vec Ideal S12x80 .bf16)
    (b0 : Vec Ideal S80 .f32) (p : Fin 32) (t : Fin 200) (o : Fin 80) :
    k0_pay2 q k wq wk wqk b0 (ix3 p t o)
      = pre0 ⟨fun e o => wq (ix2 e o), fun e o => wk (ix2 e o), fun e o => wqk (ix2 e o), fun o => b0 (ix1 o)⟩
          (fun e => q (ix3 p (0 : Fin 1) e)) (fun e => k (ix3 p t e)) o := by
  have hp := p.isLt
  have ht := t.isLt
  let r : Fin 6400 := ⟨p.val * 200 + t.val, by omega⟩
  have hr : r.val = p.val * 200 + t.val := rfl
  unfold k0_pay2 pre0
  dsimp only
  refine congrArg₂ (· + ·) (congrArg₂ (· + ·) ?_ ?_) ?_
  · refine (shapeCast_nc_abc_apply _ shapeCasts_S6400x80_S32x200x80 r p t o hr).trans ?_
    refine congrArg₂ (· + ·) (flat_matmul_apply k wk p t o r hr) ?_
    refine (flat_matmul_apply _ wqk p t o r hr).trans ?_
    refine Finset.sum_congr rfl fun e _ => congrArg (· * wqk (ix2 e o)) ?_
    refine congrArg (· * k (ix3 p t e)) ?_
    rw [shapeCast_self]
    exact broadcastTo_a1c_abc_apply q broadcasts_S32x1x12_S32x200x12 p t e
  · refine (broadcastTo_a1c_abc_apply _ broadcasts_S32x1x80_S32x200x80 p t o).trans ?_
    refine (shapeCast_ac_a1c_apply _ shapeCasts_S32x80_S32x1x80 p 0 o).trans ?_
    exact query_matmul_apply q wq p o
  · exact vec_over_stack_apply b0 shapeCasts_S80_S1x1x80 broadcasts_S1x1x80_S32x200x80 p t o

end Cert.KernelIdeal.BlockValue

end
-- ==== Proof.LibPairwiseLayout.lean ====
/-
  Layout operations of an all-pairs difference between the rows of a table [b, c] and the rows of a stack [a, k, c],
  taken as a rank-4 array [a, b, k, c], each read at an index given by coordinates; a float sum over the LAST axis of a
  rank-3 or rank-4 array read as a sum over that axis's coordinate; and a rank-3 array cut along its FIRST axis.
  General facts about shapes: nothing here mentions a program.

  • `shapeCast_bc_1b1c_apply`: a table [b, c] viewed as [1, b, 1, c] reads, at (0, p, 0, q), the table at (p, q).
  • `shapeCast_akc_a1kc_apply`: a stack [a, k, c] viewed as [a, 1, k, c] reads, at (r, 0, j, q), the stack at (r, j, q).
  • `broadcastTo_1b1c_abkc_apply`: [1, b, 1, c] broadcast to [a, b, k, c] reads, at (r, p, j, q), the operand at (0, p, 0, q).
  • `broadcastTo_a1kc_abkc_apply`: [a, 1, k, c] broadcast to [a, b, k, c] reads, at (r, p, j, q), the operand at (r, 0, j, q).
  • `lastSum4_zero_apply`: the sum of an [a, b, k, c] array along its last axis, from the zero pattern, reads at (r, p, j)
    the sum over q of the array at (r, p, j, q).
  • `lastSum3_zero_apply`: the sum of an [a, b, c] array along its last axis, from the zero pattern, reads at (r, p) the sum
    over q of the array at (r, p, q).
  • `slice3_axis0_apply`: an [n0, n1, n2] array cut along axis 0 from `o` reads, at (j, b, e), the source at (o + j, b, e).
-/
import Idealize.ShloMosaic.Lib.ValueLayout
import Idealize.ShloMosaic.PureOps.Ideal.Laws

noncomputable section

namespace Cert.Lib.PairwiseLayout

open Idealize.ShloMosaic Idealize.ShloMosaic.ValueIdx

variable {α : Type}

/-- A `[b, c]` table cast to `[1, b, 1, c]` reads, at `(0, p, 0, q)`, the table at `(p, q)`: both sit at row-major
    position `p * c + q`. -/
theorem shapeCast_bc_1b1c_apply {b c : ℕ} (x : (⟨2, ![b, c]⟩ : Shape).Idx → α)
    (h : (⟨2, ![b, c]⟩ : Shape).ShapeCasts ⟨4, ![1, b, 1, c]⟩) (p : Fin b) (q : Fin c) :
    shapeCast ⟨4, ![1, b, 1, c]⟩ x h (ix4 (0 : Fin 1) p (0 : Fin 1) q) = x (ix2 p q) :=
  shapeCast_apply x h _ _ (by
    rw [Shape.rowMajor_val_four, Shape.rowMajor_val_two]
    show p.val * c + q.val = ((0 * b + p.val) * 1 + 0) * c + q.val
    rw [Nat.zero_mul, Nat.zero_add, Nat.mul_one, Nat.add_zero])

/-- An `[a, k, c]` stack cast to `[a, 1, k, c]` reads, at `(r, 0, j, q)`, the stack at `(r, j, q)`: both sit at
    row-major position `(r * k + j) * c + q`. -/
theorem shapeCast_akc_a1kc_apply {a k c : ℕ} (x : (⟨3, ![a, k, c]⟩ : Shape).Idx → α)
    (h : (⟨3, ![a, k, c]⟩ : Shape).ShapeCasts ⟨4, ![a, 1, k, c]⟩) (r : Fin a) (j : Fin k) (q : Fin c) :
    shapeCast ⟨4, ![a, 1, k, c]⟩ x h (ix4 r (0 : Fin 1) j q) = x (ix3 r j q) :=
  shapeCast_apply x h _ _ (by
    rw [Shape.rowMajor_val_four, Shape.rowMajor_val_three]
    show (r.val * k + j.val) * c + q.val = ((r.val * 1 + 0) * k + j.val) * c + q.val
    rw [Nat.mul_one, Nat.add_zero])

/-- `[1, b, 1, c]` broadcast to `[a, b, k, c]` reads, at `(r, p, j, q)`, the operand at `(0, p, 0, q)`: the same table
    for every `r` and `j`. -/
theorem broadcastTo_1b1c_abkc_apply {a b k c : ℕ} (v : (⟨4, ![1, b, 1, c]⟩ : Shape).Idx → α)
    (h : (⟨4, ![1, b, 1, c]⟩ : Shape).Broadcasts ⟨4, ![a, b, k, c]⟩) (r : Fin a) (p : Fin b) (j : Fin k) (q : Fin c) :
    broadcastTo ⟨4, ![a, b, k, c]⟩ v h (ix4 r p j q) = v (ix4 (0 : Fin 1) p (0 : Fin 1) q) := by
  refine broadcastTo_apply v h (ix4 r p j q) (ix4 (0 : Fin 1) p (0 : Fin 1) q) fun ax => ?_
  match ax with
  | ⟨0, _⟩ =>
    show (0 : ℕ) = if (1 : ℕ) = 1 then 0 else r.val
    rw [if_pos rfl]
  | ⟨1, _⟩ =>
    show p.val = if b = 1 then 0 else p.val
    split
    · have := p.isLt; omega
    · rfl
  | ⟨2, _⟩ =>
    show (0 : ℕ) = if (1 : ℕ) = 1 then 0 else j.val
    rw [if_pos rfl]
  | ⟨3, _⟩ =>
    show q.val = if c = 1 then 0 else q.val
    split
    · have := q.isLt; omega
    · rfl

/-- `[a, 1, k, c]` broadcast to `[a, b, k, c]` reads, at `(r, p, j, q)`, the operand at `(r, 0, j, q)`: the same stack
    for every `p`. -/
theorem broadcastTo_a1kc_abkc_apply {a b k c : ℕ} (v : (⟨4, ![a, 1, k, c]⟩ : Shape).Idx → α)
    (h : (⟨4, ![a, 1, k, c]⟩ : Shape).Broadcasts ⟨4, ![a, b, k, c]⟩) (r : Fin a) (p : Fin b) (j : Fin k) (q : Fin c) :
    broadcastTo ⟨4, ![a, b, k, c]⟩ v h (ix4 r p j q) = v (ix4 r (0 : Fin 1) j q) := by
  refine broadcastTo_apply v h (ix4 r p j q) (ix4 r (0 : Fin 1) j q) fun ax => ?_
  match ax with
  | ⟨0, _⟩ =>
    show r.val = if a = 1 then 0 else r.val
    split
    · have := r.isLt; omega
    · rfl
  | ⟨1, _⟩ =>
    show (0 : ℕ) = if (1 : ℕ) = 1 then 0 else p.val
    rw [if_pos rfl]
  | ⟨2, _⟩ =>
    show j.val = if k = 1 then 0 else j.val
    split
    · have := j.isLt; omega
    · rfl
  | ⟨3, _⟩ =>
    show q.val = if c = 1 then 0 else q.val
    split
    · have := q.isLt; omega
    · rfl

/-- The sum of an `[a, b, k, c]` array along its last axis from a zero accumulator reads, at `(r, p, j)`, the sum over `q`
    of the array at `(r, p, j, q)` (the accumulator's neutrality stated as the equation of the two zero patterns, the form
    in which a printed body carries it). -/
theorem lastSum4_zero_apply {a b k c : ℕ} (src : FVec Ideal ⟨4, ![a, b, k, c]⟩ .f32)
    (hR : (⟨4, ![a, b, k, c]⟩ : Shape).Reduces [3] ⟨3, ![a, b, k]⟩)
    (hφ : FKind.Formats .f32) (hacc : (0x00000000#32 : BitVec 32) = 0x00000000#32) (r : Fin a) (p : Fin b) (j : Fin k) :
    multiReduction (F := Ideal) .add [3] ⟨3, ![a, b, k]⟩ src 0x00000000#32 hR hφ hacc (ix3 r p j)
      = ∑ q : Fin c, src (ix4 r p j q) :=
  (Ideal.multiReduction_add_single src _ hR hφ hacc (ix3 r p j)).trans
    (Finset.sum_congr rfl fun q _ => congrArg src (funext fun d => by
      match d with | ⟨0, _⟩ => rfl | ⟨1, _⟩ => rfl | ⟨2, _⟩ => rfl | ⟨3, _⟩ => rfl))

/-- The sum of an `[a, b, c]` array along its last axis from a zero accumulator reads, at `(r, p)`, the sum over `q` of the
    array at `(r, p, q)`. -/
theorem lastSum3_zero_apply {a b c : ℕ} (src : FVec Ideal ⟨3, ![a, b, c]⟩ .f32)
    (hR : (⟨3, ![a, b, c]⟩ : Shape).Reduces [2] ⟨2, ![a, b]⟩)
    (hφ : FKind.Formats .f32) (hacc : (0x00000000#32 : BitVec 32) = 0x00000000#32) (r : Fin a) (p : Fin b) :
    multiReduction (F := Ideal) .add [2] ⟨2, ![a, b]⟩ src 0x00000000#32 hR hφ hacc (ix2 r p)
      = ∑ q : Fin c, src (ix3 r p q) :=
  (Ideal.multiReduction_add_single src _ hR hφ hacc (ix2 r p)).trans
    (Finset.sum_congr rfl fun q _ => congrArg src (funext fun d => by
      match d with | ⟨0, _⟩ => rfl | ⟨1, _⟩ => rfl | ⟨2, _⟩ => rfl))

/-- A rank-3 array cut along axis 0 from `o` reads, at `(j, b, e)`, the source at `(k, b, e)` with `k = o + j`. -/
theorem slice3_axis0_apply {n0 n1 n2 m : Nat} (o : Nat) (X : (⟨3, ![n0, n1, n2]⟩ : Shape).Idx → α)
    (h : (⟨3, ![n0, n1, n2]⟩ : Shape).Slices ![o, 0, 0] ⟨3, ![m, n1, n2]⟩)
    (j : Fin m) (b : Fin n1) (e : Fin n2) (k : Fin n0) (hk : k.val = o + j.val) :
    extractStridedSlice ⟨3, ![m, n1, n2]⟩ ![o, 0, 0] X h (ix3 j b e) = X (ix3 k b e) :=
  extractStridedSlice_apply _ _ _ _ _ (fun ax => by
    match ax with
    | ⟨0, _⟩ => exact hk
    | ⟨1, _⟩ => exact (Nat.zero_add _).symm
    | ⟨2, _⟩ => exact (Nat.zero_add _).symm)

end Cert.Lib.PairwiseLayout

end
-- ==== Proof.KernelScore.lean ====
/-
  The kernel's two gates, its second layer and its scoring sum, read at one key (p, t) of a block of 32 batch rows.

  The first gate's centred value and scale arrive as separate pieces (x − μ laid over the stack, rsqrt(v + ε) as a
  [1, 1, 80] row); the gated rows are flattened to 6400 rows, multiplied by the 80 × 40 second-layer matrix and folded
  back, the bias added, the second gate applied, and the 40 gated values weighted by the scoring row and summed along
  the last axis.
-/
import proofs.«179337_j33956011442642_2_alg».proof.Proof.Gen.KernelIdeal.Skeleton
import proofs.«179337_j33956011442642_2_alg».proof.Proof.Spec
import proofs.«179337_j33956011442642_2_alg».proof.Proof.LibStackLayout
import proofs.«179337_j33956011442642_2_alg».proof.Proof.LibOuterSumLayout
import proofs.«179337_j33956011442642_2_alg».proof.Proof.LibPlainMatmul
import proofs.«179337_j33956011442642_2_alg».proof.Proof.LibPairwiseLayout
import proofs.«179337_j33956011442642_2_alg».proof.Proof.KernelLayer0
import Idealize.ShloMosaic.Lib.Pipeline.Value

noncomputable section

namespace Cert.KernelIdeal.BlockValue

open Cert.KernelIdeal Cert.KernelIdeal.Gen Idealize.ShloMosaic Idealize.ShloMosaic.ValueIdx
open Cert.ActUnit Cert.Lib.StackLayout Cert.PlainMatmul Cert.Lib.PairwiseLayout

/-- The centred first-layer value at (p, t, o): the first layer's sum minus the gate's mean. -/
theorem pay3_apply (q : Vec Ideal S32x1x12 .f32) (k : Vec Ideal S32x200x12 .f32) (wq wk wqk : Vec Ideal S12x80 .bf16)
    (b0 mm0 : Vec Ideal S80 .f32) (p : Fin 32) (t : Fin 200) (o : Fin 80) :
    k0_pay3 q k wq wk wqk b0 mm0 (ix3 p t o) = k0_pay2 q k wq wk wqk b0 (ix3 p t o) - mm0 (ix1 o) := by
  unfold k0_pay3
  exact congrArg (k0_pay2 q k wq wk wqk b0 (ix3 p t o) - ·)
    (vec_over_stack_apply mm0 shapeCasts_S80_S1x1x80 broadcasts_S1x1x80_S32x200x80 p t o)

/-- The first gate's scale as a [1, 1, 80] row: rsqrt(v + ε) at column o. -/
theorem pay4_apply (mv0 : Vec Ideal S80 .f32) (u v : Fin 1) (o : Fin 80) :
    k0_pay4 mv0 (ix3 u v o) = Ideal.rsqrt (mv0 (ix1 o) + epsW) := by
  unfold k0_pay4
  exact cast_c_11c_apply _ shapeCasts_S80_S1x1x80 u v o

/-- A stack of 32 × 200 rows of 80 flattened to 6400 rows and multiplied by an 80 × 40 matrix into the zero splat: at
    row r = p·200 + t and column j it is Σ_i X(p, t, i)·W(i, j). -/
theorem flat_matmul1_apply (X : FVec Ideal S32x200x80 .f32) (W : FVec Ideal S80x40 .bf16) (p : Fin 32) (t : Fin 200)
    (j : Fin 40) (r : Fin 6400) (hr : r.val = p.val * 200 + t.val) :
    FloatOps.matmul (F := Ideal) dot_S6400x80_S80x40_S6400x40_1_0_0_1_n_n none
        (truncf .bf16 (shapeCast S6400x80 X shapeCasts_S32x200x80_S6400x80) bitsLt_bf16_f32)
        (shapeCast S80x40 W shapeCasts_S80x40_S80x40) (constant S6400x40 .f32 0x00000000#32) (ix2 r j)
      = ∑ i : Fin 80, X (ix3 p t i) * W (ix2 i j) := by
  refine (matmul_zero_apply dot_S6400x80_S80x40_S6400x40_1_0_0_1_n_n_wf none _ _ r j).trans ?_
  refine Finset.sum_congr rfl fun i _ => ?_
  rw [shapeCast_self]
  exact congrArg (· * W (ix2 i j)) (shapeCast_abc_nc_apply X shapeCasts_S32x200x80_S6400x80 r p t i hr)

/-- The weighted sum of the second layer's gated values at key (p, t), from the first layer's sums `v28`, their centred
    values `v34` and the first gate's scale row `v38`. -/
theorem pay5_apply (v28 : FVec Ideal S32x200x80 .f32) (al0 : Vec Ideal S80 .f32) (v34 : FVec Ideal S32x200x80 .f32)
    (v38 : FVec Ideal S1x1x80 .f32) (w1 : Vec Ideal S80x40 .bf16) (b1 al1 mm1 mv1 : Vec Ideal S40 .f32)
    (ak : Vec Ideal S1x1x40 .f32) (p : Fin 32) (t : Fin 200) :
    k0_pay5 v28 al0 v34 v38 w1 b1 al1 mm1 mv1 ak (ix2 p t)
      = ∑ j : Fin 40,
          gate ((∑ i : Fin 80,
              (v28 (ix3 p t i) * (Ideal.logistic (v34 (ix3 p t i) * v38 (ix3 (0 : Fin 1) (0 : Fin 1) i))
                + al0 (ix1 i) * (oneW - Ideal.logistic (v34 (ix3 p t i) * v38 (ix3 (0 : Fin 1) (0 : Fin 1) i)))))
                * w1 (ix2 i j)) + b1 (ix1 j))
            (al1 (ix1 j)) (mm1 (ix1 j)) (mv1 (ix1 j)) * ak (ix3 (0 : Fin 1) (0 : Fin 1) j) := by
  have hp := p.isLt
  have ht := t.isLt
  let r : Fin 6400 := ⟨p.val * 200 + t.val, by omega⟩
  have hr : r.val = p.val * 200 + t.val := rfl
  unfold k0_pay5
  dsimp only
  refine (lastSum3_zero_apply _ reduces_S32x200x40_S32x200 _ _ p t).trans ?_
  refine Finset.sum_congr rfl fun j _ => ?_
  refine congrArg₂ (· * ·) ?_ ?_
  · -- the second gate at (p, t, j)
    have e58 : ∀ (A : FVec Ideal S32x200x80 .f32),
        shapeCast S32x200x40 (FloatOps.matmul (F := Ideal) dot_S6400x80_S80x40_S6400x40_1_0_0_1_n_n none
          (truncf .bf16 (shapeCast S6400x80 A shapeCasts_S32x200x80_S6400x80) bitsLt_bf16_f32)
          (shapeCast S80x40 w1 shapeCasts_S80x40_S80x40) (constant S6400x40 .f32 0x00000000#32))
          shapeCasts_S6400x40_S32x200x40 (ix3 p t j)
        = ∑ i : Fin 80, A (ix3 p t i) * w1 (ix2 i j) := fun A =>
      (shapeCast_nc_abc_apply _ shapeCasts_S6400x40_S32x200x40 r p t j hr).trans (flat_matmul1_apply A w1 p t j r hr)
    have eb : broadcastTo S32x200x40 (shapeCast S1x1x40 b1 shapeCasts_S40_S1x1x40) broadcasts_S1x1x40_S32x200x40 (ix3 p t j)
        = b1 (ix1 j) := vec_over_stack_apply b1 _ _ p t j
    have em : broadcastTo S32x200x40 (shapeCast S1x1x40 mm1 shapeCasts_S40_S1x1x40) broadcasts_S1x1x40_S32x200x40 (ix3 p t j)
        = mm1 (ix1 j) := vec_over_stack_apply mm1 _ _ p t j
    have ea : broadcastTo S32x200x40 (shapeCast S1x1x40 al1 shapeCasts_S40_S1x1x40) broadcasts_S1x1x40_S32x200x40 (ix3 p t j)
        = al1 (ix1 j) := vec_over_stack_apply al1 _ _ p t j
    have ev : broadcastTo S32x200x40 (shapeCast S1x1x40 (rsqrt (addf mv1 (broadcast S40 (Scalar.ofBits (F := Ideal) .f32 0x3089705F#32))))
          shapeCasts_S40_S1x1x40) broadcasts_S1x1x40_S32x200x40 (ix3 p t j)
        = Ideal.rsqrt (mv1 (ix1 j) + epsW) := vec_over_stack_apply _ _ _ p t j
    unfold gate
    simp only [mulf_apply, addf_apply, subf_apply, logistic, rsqrt, Ideal.logistic_def, Ideal.rsqrt_def] at ev ⊢
    rw [e58, eb, em, ea, ev]
    simp only [mulf_apply, addf_apply, subf_apply, logistic, Ideal.logistic_def, bcast_11c_abc_apply,
      cast_c_11c_apply, broadcast_apply]
    rfl
  · refine (bcast_11c_abc_apply _ broadcasts_S1x1x40_S32x200x40 p t j).trans ?_
    rw [shapeCast_self, shapeCast_self]

end Cert.KernelIdeal.BlockValue

end
-- ==== Proof.KernelOut.lean ====
/-
  The kernel's output block, read at one entry: for batch row p of a block of 32, the weighted sum over the 200 keys of
  (score + bias)·key, and with it the whole body as the unit's row output.
-/
import proofs.«179337_j33956011442642_2_alg».proof.Proof.Gen.KernelIdeal.Skeleton
import proofs.«179337_j33956011442642_2_alg».proof.Proof.Spec
import proofs.«179337_j33956011442642_2_alg».proof.Proof.SpecArrays
import proofs.«179337_j33956011442642_2_alg».proof.Proof.LibStackLayout
import proofs.«179337_j33956011442642_2_alg».proof.Proof.LibOuterSumLayout
import proofs.«179337_j33956011442642_2_alg».proof.Proof.LibMiddleSum
import proofs.«179337_j33956011442642_2_alg».proof.Proof.KernelLayer0
import proofs.«179337_j33956011442642_2_alg».proof.Proof.KernelScore
import Idealize.ShloMosaic.Lib.Pipeline.Value

noncomputable section

namespace Cert.KernelIdeal.BlockValue

open Cert.KernelIdeal Cert.KernelIdeal.Gen Idealize.ShloMosaic Idealize.ShloMosaic.ValueIdx
open Cert.ActUnit Cert.Lib.StackLayout

/-- The output block at (p, ·, e): Σ_t (s(p, t) + bias)·key(p, t, e), for the scoring sums `s`. -/
theorem pay1_apply (k : Vec Ideal S32x200x12 .f32) (s : FVec Ideal S32x200 .f32) (ab : Vec Ideal S1 .f32)
    (p : Fin 32) (u : Fin 1) (e : Fin 12) :
    k0_pay1 k s ab (ix3 p u e) = ∑ t : Fin 200, (s (ix2 p t) + ab (ix1 (0 : Fin 1))) * k (ix3 p t e) := by
  unfold k0_pay1
  refine (shapeCast_ac_a1c_apply _ shapeCasts_S32x12_S32x1x12 p u e).trans ?_
  refine (Cert.MiddleSum.middle_sum_apply _ reduces_S32x200x12_S32x12 _ _ p e).trans ?_
  refine Finset.sum_congr rfl fun t _ => ?_
  refine congrArg (· * k (ix3 p t e)) ?_
  refine (bcast_ab1_abc_apply _ broadcasts_S32x200x1_S32x200x12 p t e).trans ?_
  refine (cast_ab_ab1_apply _ shapeCasts_S32x200_S32x200x1 p t 0).trans ?_
  refine (cast_ab1_ab_apply _ shapeCasts_S32x200x1_S32x200 p t).trans ?_
  exact congrArg₂ (· + ·) (cast_ab_ab1_apply s shapeCasts_S32x200_S32x200x1 p t 0)
    (vec_over_stack_apply ab shapeCasts_S1_S1x1x1 broadcasts_S1x1x1_S32x200x1 p t 0)

/-- The whole body at (p, ·, e) of a block is the unit's output for the block's query row p and its 200 key rows. -/
theorem body_apply (q : Vec Ideal S32x1x12 .f32) (k : Vec Ideal S32x200x12 .f32) (wq wk wqk : Vec Ideal S12x80 .bf16)
    (b0 : Vec Ideal S80 .f32) (w1 : Vec Ideal S80x40 .bf16) (b1 : Vec Ideal S40 .f32) (al0 : Vec Ideal S80 .f32)
    (al1 : Vec Ideal S40 .f32) (mm0 mv0 : Vec Ideal S80 .f32) (mm1 mv1 : Vec Ideal S40 .f32)
    (ak : Vec Ideal S1x1x40 .f32) (ab : Vec Ideal S1 .f32) (p : Fin 32) (u : Fin 1) (e : Fin 12) :
    k0_pay1 k (k0_pay5 (k0_pay2 q k wq wk wqk b0) al0 (k0_pay3 q k wq wk wqk b0 mm0) (k0_pay4 mv0) w1 b1 al1 mm1 mv1 ak) ab
        (ix3 p u e)
      = rowOut (layer0Of wq wk wqk b0)
          (tailOf al0 mm0 mv0 w1 b1 al1 mm1 mv1 (fun j => ak (ix3 (0 : Fin 1) (0 : Fin 1) j)) (ab (ix1 (0 : Fin 1))))
          (fun e' => q (ix3 p (0 : Fin 1) e')) (fun t e' => k (ix3 p t e')) e := by
  refine (pay1_apply k _ ab p u e).trans ?_
  unfold rowOut score
  refine Finset.sum_congr rfl fun t _ => ?_
  refine congrArg (· * k (ix3 p t e)) ?_
  refine congrArg (· + ab (ix1 (0 : Fin 1))) ?_
  refine (pay5_apply _ al0 _ _ w1 b1 al1 mm1 mv1 ak p t).trans ?_
  refine Finset.sum_congr rfl fun j _ => ?_
  refine congrArg (fun z => gate (z + b1 (ix1 j)) (al1 (ix1 j)) (mm1 (ix1 j)) (mv1 (ix1 j)) * ak (ix3 (0 : Fin 1) (0 : Fin 1) j)) ?_
  refine Finset.sum_congr rfl fun i _ => ?_
  refine congrArg (· * w1 (ix2 i j)) ?_
  rw [pay3_apply, pay4_apply, pay2_apply]
  rfl

end Cert.KernelIdeal.BlockValue

end
-- ==== Proof.KernelValue.lean ====
/-
  From the kernel's blocks to its result array.

  Grid point t handles batch rows 32·t … 32·t + 31: its query, key and output blocks sit at block index (t, 0, 0), and
  every parameter window is the whole of its (small) array at every point.  So what point t writes back is rows
  32·t … 32·t + 31 of the unit's result array, computed from the arrays as the region finds them; the 128 blocks cover
  the 4096 rows, and the result array ends holding the unit's result.
-/
import proofs.«179337_j33956011442642_2_alg».proof.Proof.Gen.KernelIdeal.Value
import proofs.«179337_j33956011442642_2_alg».proof.Proof.Spec
import proofs.«179337_j33956011442642_2_alg».proof.Proof.SpecArrays
import proofs.«179337_j33956011442642_2_alg».proof.Proof.KernelOut
import Idealize.ShloMosaic.Lib.Pipeline.Value

noncomputable section

namespace Cert.KernelIdeal.BlockValue

open Cert.KernelIdeal Cert.KernelIdeal.Gen Idealize.ShloMosaic Idealize.ShloMosaic.TcCoe Idealize.SL.Sem
open Idealize.ShloMosaic.ValueIdx Cert.ActUnit
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-! ## The index maps, decided over the 128 grid points -/

theorem idx0 : ∀ t : Fin cfg0.N, win0_0.index t = ![t.val, 0, 0] :=
  (by decide +kernel : ∀ t : Fin grid0.N, win0_0.index t = ![t.val, 0, 0])
theorem idx1 : ∀ t : Fin cfg0.N, win0_1.index t = ![t.val, 0, 0] :=
  (by decide +kernel : ∀ t : Fin grid0.N, win0_1.index t = ![t.val, 0, 0])
theorem idx16 : ∀ t : Fin cfg0.N, win0_16.index t = ![t.val, 0, 0] :=
  (by decide +kernel : ∀ t : Fin grid0.N, win0_16.index t = ![t.val, 0, 0])
theorem idx2 : ∀ t : Fin cfg0.N, win0_2.index t = ![0, 0] :=
  (by decide +kernel : ∀ t : Fin grid0.N, win0_2.index t = ![0, 0])
theorem idx3 : ∀ t : Fin cfg0.N, win0_3.index t = ![0, 0] :=
  (by decide +kernel : ∀ t : Fin grid0.N, win0_3.index t = ![0, 0])
theorem idx4 : ∀ t : Fin cfg0.N, win0_4.index t = ![0, 0] :=
  (by decide +kernel : ∀ t : Fin grid0.N, win0_4.index t = ![0, 0])
theorem idx5 : ∀ t : Fin cfg0.N, win0_5.index t = ![0] :=
  (by decide +kernel : ∀ t : Fin grid0.N, win0_5.index t = ![0])
theorem idx6 : ∀ t : Fin cfg0.N, win0_6.index t = ![0, 0] :=
  (by decide +kernel : ∀ t : Fin grid0.N, win0_6.index t = ![0, 0])
theorem idx7 : ∀ t : Fin cfg0.N, win0_7.index t = ![0] :=
  (by decide +kernel : ∀ t : Fin grid0.N, win0_7.index t = ![0])
theorem idx8 : ∀ t : Fin cfg0.N, win0_8.index t = ![0] :=
  (by decide +kernel : ∀ t : Fin grid0.N, win0_8.index t = ![0])
theorem idx9 : ∀ t : Fin cfg0.N, win0_9.index t = ![0] :=
  (by decide +kernel : ∀ t : Fin grid0.N, win0_9.index t = ![0])
theorem idx10 : ∀ t : Fin cfg0.N, win0_10.index t = ![0] :=
  (by decide +kernel : ∀ t : Fin grid0.N, win0_10.index t = ![0])
theorem idx11 : ∀ t : Fin cfg0.N, win0_11.index t = ![0] :=
  (by decide +kernel : ∀ t : Fin grid0.N, win0_11.index t = ![0])
theorem idx12 : ∀ t : Fin cfg0.N, win0_12.index t = ![0] :=
  (by decide +kernel : ∀ t : Fin grid0.N, win0_12.index t = ![0])
theorem idx13 : ∀ t : Fin cfg0.N, win0_13.index t = ![0] :=
  (by decide +kernel : ∀ t : Fin grid0.N, win0_13.index t = ![0])
theorem idx14 : ∀ t : Fin cfg0.N, win0_14.index t = ![0, 0, 0] :=
  (by decide +kernel : ∀ t : Fin grid0.N, win0_14.index t = ![0, 0, 0])
theorem idx15 : ∀ t : Fin cfg0.N, win0_15.index t = ![0] :=
  (by decide +kernel : ∀ t : Fin grid0.N, win0_15.index t = ![0])

/-! ## A parameter window's block is its whole array, at every point -/

theorem blk2 (c : Dev nD) (t : Fin cfg0.N) : iblk m c 2 t = (V m c main_v7 : S12x80.Idx → EReal) := by
  funext j
  show V m c main_v7 (((cfg0.win 2).blk t).view.emb j) = V m c main_v7 j
  refine congrArg _ (funext fun a => Fin.ext ?_)
  match a with
  | ⟨0, _⟩ => show win0_2.index t (0 : Fin 2) * 12 + 1 * (j 0).val = (j 0).val; rw [idx2 t]; show 0 * 12 + 1 * (j 0).val = _; omega
  | ⟨1, _⟩ => show win0_2.index t (1 : Fin 2) * 80 + 1 * (j 1).val = (j 1).val; rw [idx2 t]; show 0 * 80 + 1 * (j 1).val = _; omega

theorem blk3 (c : Dev nD) (t : Fin cfg0.N) : iblk m c 3 t = (V m c main_v8 : S12x80.Idx → EReal) := by
  funext j
  show V m c main_v8 (((cfg0.win 3).blk t).view.emb j) = V m c main_v8 j
  refine congrArg _ (funext fun a => Fin.ext ?_)
  match a with
  | ⟨0, _⟩ => show win0_3.index t (0 : Fin 2) * 12 + 1 * (j 0).val = (j 0).val; rw [idx3 t]; show 0 * 12 + 1 * (j 0).val = _; omega
  | ⟨1, _⟩ => show win0_3.index t (1 : Fin 2) * 80 + 1 * (j 1).val = (j 1).val; rw [idx3 t]; show 0 * 80 + 1 * (j 1).val = _; omega

theorem blk4 (c : Dev nD) (t : Fin cfg0.N) : iblk m c 4 t = (V m c main_v9 : S12x80.Idx → EReal) := by
  funext j
  show V m c main_v9 (((cfg0.win 4).blk t).view.emb j) = V m c main_v9 j
  refine congrArg _ (funext fun a => Fin.ext ?_)
  match a with
  | ⟨0, _⟩ => show win0_4.index t (0 : Fin 2) * 12 + 1 * (j 0).val = (j 0).val; rw [idx4 t]; show 0 * 12 + 1 * (j 0).val = _; omega
  | ⟨1, _⟩ => show win0_4.index t (1 : Fin 2) * 80 + 1 * (j 1).val = (j 1).val; rw [idx4 t]; show 0 * 80 + 1 * (j 1).val = _; omega

theorem blk5 (c : Dev nD) (t : Fin cfg0.N) : iblk m c 5 t = (V m c main_arg4 : S80.Idx → EReal) := by
  funext j
  show V m c main_arg4 (((cfg0.win 5).blk t).view.emb j) = V m c main_arg4 j
  refine congrArg _ (funext fun a => Fin.ext ?_)
  match a with
  | ⟨0, _⟩ => show win0_5.index t (0 : Fin 1) * 80 + 1 * (j 0).val = (j 0).val; rw [idx5 t]; show 0 * 80 + 1 * (j 0).val = _; omega

theorem blk6 (c : Dev nD) (t : Fin cfg0.N) : iblk m c 6 t = (V m c main_v10 : S80x40.Idx → EReal) := by
  funext j
  show V m c main_v10 (((cfg0.win 6).blk t).view.emb j) = V m c main_v10 j
  refine congrArg _ (funext fun a => Fin.ext ?_)
  match a with
  | ⟨0, _⟩ => show win0_6.index t (0 : Fin 2) * 80 + 1 * (j 0).val = (j 0).val; rw [idx6 t]; show 0 * 80 + 1 * (j 0).val = _; omega
  | ⟨1, _⟩ => show win0_6.index t (1 : Fin 2) * 40 + 1 * (j 1).val = (j 1).val; rw [idx6 t]; show 0 * 40 + 1 * (j 1).val = _; omega

theorem blk7 (c : Dev nD) (t : Fin cfg0.N) : iblk m c 7 t = (V m c main_arg6 : S40.Idx → EReal) := by
  funext j
  show V m c main_arg6 (((cfg0.win 7).blk t).view.emb j) = V m c main_arg6 j
  refine congrArg _ (funext fun a => Fin.ext ?_)
  match a with
  | ⟨0, _⟩ => show win0_7.index t (0 : Fin 1) * 40 + 1 * (j 0).val = (j 0).val; rw [idx7 t]; show 0 * 40 + 1 * (j 0).val = _; omega

theorem blk8 (c : Dev nD) (t : Fin cfg0.N) : iblk m c 8 t = (V m c main_arg7 : S80.Idx → EReal) := by
  funext j
  show V m c main_arg7 (((cfg0.win 8).blk t).view.emb j) = V m c main_arg7 j
  refine congrArg _ (funext fun a => Fin.ext ?_)
  match a with
  | ⟨0, _⟩ => show win0_8.index t (0 : Fin 1) * 80 + 1 * (j 0).val = (j 0).val; rw [idx8 t]; show 0 * 80 + 1 * (j 0).val = _; omega

theorem blk9 (c : Dev nD) (t : Fin cfg0.N) : iblk m c 9 t = (V m c main_arg8 : S40.Idx → EReal) := by
  funext j
  show V m c main_arg8 (((cfg0.win 9).blk t).view.emb j) = V m c main_arg8 j
  refine congrArg _ (funext fun a => Fin.ext ?_)
  match a with
  | ⟨0, _⟩ => show win0_9.index t (0 : Fin 1) * 40 + 1 * (j 0).val = (j 0).val; rw [idx9 t]; show 0 * 40 + 1 * (j 0).val = _; omega

theorem blk10 (c : Dev nD) (t : Fin cfg0.N) : iblk m c 10 t = (V m c main_arg9 : S80.Idx → EReal) := by
  funext j
  show V m c main_arg9 (((cfg0.win 10).blk t).view.emb j) = V m c main_arg9 j
  refine congrArg _ (funext fun a => Fin.ext ?_)
  match a with
  | ⟨0, _⟩ => show win0_10.index t (0 : Fin 1) * 80 + 1 * (j 0).val = (j 0).val; rw [idx10 t]; show 0 * 80 + 1 * (j 0).val = _; omega

theorem blk11 (c : Dev nD) (t : Fin cfg0.N) : iblk m c 11 t = (V m c main_arg10 : S80.Idx → EReal) := by
  funext j
  show V m c main_arg10 (((cfg0.win 11).blk t).view.emb j) = V m c main_arg10 j
  refine congrArg _ (funext fun a => Fin.ext ?_)
  match a with
  | ⟨0, _⟩ => show win0_11.index t (0 : Fin 1) * 80 + 1 * (j 0).val = (j 0).val; rw [idx11 t]; show 0 * 80 + 1 * (j 0).val = _; omega

theorem blk12 (c : Dev nD) (t : Fin cfg0.N) : iblk m c 12 t = (V m c main_arg11 : S40.Idx → EReal) := by
  funext j
  show V m c main_arg11 (((cfg0.win 12).blk t).view.emb j) = V m c main_arg11 j
  refine congrArg _ (funext fun a => Fin.ext ?_)
  match a with
  | ⟨0, _⟩ => show win0_12.index t (0 : Fin 1) * 40 + 1 * (j 0).val = (j 0).val; rw [idx12 t]; show 0 * 40 + 1 * (j 0).val = _; omega

theorem blk13 (c : Dev nD) (t : Fin cfg0.N) : iblk m c 13 t = (V m c main_arg12 : S40.Idx → EReal) := by
  funext j
  show V m c main_arg12 (((cfg0.win 13).blk t).view.emb j) = V m c main_arg12 j
  refine congrArg _ (funext fun a => Fin.ext ?_)
  match a with
  | ⟨0, _⟩ => show win0_13.index t (0 : Fin 1) * 40 + 1 * (j 0).val = (j 0).val; rw [idx13 t]; show 0 * 40 + 1 * (j 0).val = _; omega

theorem blk14 (c : Dev nD) (t : Fin cfg0.N) : iblk m c 14 t = (V m c main_v12 : S1x1x40.Idx → EReal) := by
  funext j
  show V m c main_v12 (((cfg0.win 14).blk t).view.emb j) = V m c main_v12 j
  refine congrArg _ (funext fun a => Fin.ext ?_)
  match a with
  | ⟨0, _⟩ => show win0_14.index t (0 : Fin 3) * 1 + 1 * (j 0).val = (j 0).val; rw [idx14 t]; show 0 * 1 + 1 * (j 0).val = _; omega
  | ⟨1, _⟩ => show win0_14.index t (1 : Fin 3) * 1 + 1 * (j 1).val = (j 1).val; rw [idx14 t]; show 0 * 1 + 1 * (j 1).val = _; omega
  | ⟨2, _⟩ => show win0_14.index t (2 : Fin 3) * 40 + 1 * (j 2).val = (j 2).val; rw [idx14 t]; show 0 * 40 + 1 * (j 2).val = _; omega

theorem blk15 (c : Dev nD) (t : Fin cfg0.N) : iblk m c 15 t = (V m c main_arg14 : S1.Idx → EReal) := by
  funext j
  show V m c main_arg14 (((cfg0.win 15).blk t).view.emb j) = V m c main_arg14 j
  refine congrArg _ (funext fun a => Fin.ext ?_)
  match a with
  | ⟨0, _⟩ => show win0_15.index t (0 : Fin 1) * 1 + 1 * (j 0).val = (j 0).val; rw [idx15 t]; show 0 * 1 + 1 * (j 0).val = _; omega

/-! ## What a point writes back -/

/-- The unit's result array computed from the arrays as the region finds them. -/
def regionResult (c : Dev nD) : S4096x1x12.Idx → EReal :=
  result
    (layer0Of (V m c main_v7 : S12x80.Idx → EReal) (V m c main_v8 : S12x80.Idx → EReal)
      (V m c main_v9 : S12x80.Idx → EReal) (V m c main_arg4 : S80.Idx → EReal))
    (tailOf (V m c main_arg7 : S80.Idx → EReal) (V m c main_arg9 : S80.Idx → EReal) (V m c main_arg10 : S80.Idx → EReal)
      (V m c main_v10 : S80x40.Idx → EReal) (V m c main_arg6 : S40.Idx → EReal) (V m c main_arg8 : S40.Idx → EReal)
      (V m c main_arg11 : S40.Idx → EReal) (V m c main_arg12 : S40.Idx → EReal)
      (fun j => (V m c main_v12 : S1x1x40.Idx → EReal) (ix3 (0 : Fin 1) (0 : Fin 1) j))
      ((V m c main_arg14 : S1.Idx → EReal) (ix1 (0 : Fin 1))))
    (V m c main_arg0 : S4096x1x12.Idx → EReal) (V m c main_arg1 : S4096x200x12.Idx → EReal)

theorem rowOut_congr (L : Layer0) (P : Tail) {q q' : Fin 12 → EReal} {k k' : Fin 200 → Fin 12 → EReal} {e e' : Fin 12}
    (hq : q = q') (hk : k = k') (he : e = e') : rowOut L P q k e = rowOut L P q' k' e' := by
  subst hq hk he; rfl

/-- Point t writes back rows 32·t … 32·t + 31 of the unit's result array. -/
theorem flushed_eq (c : Dev nD) (t : Fin cfg0.N) :
    (dats m 0 c).flushed 16 t = ((cfg0.win 16).blk t).view.read (Elt Ideal) (regionResult m c) := by
  rw [Value.flushed16]
  unfold out0_16
  rw [View.canon_unit_zero hz3]
  simp only [View.ld_unit_zero (S := S32x1x12) hz3, View.ld_unit_zero (S := S32x200x12) hz3,
    View.ld_unit_zero (S := S12x80) hz2, View.ld_unit_zero (S := S80) hz1, View.ld_unit_zero (S := S80x40) hz2,
    View.ld_unit_zero (S := S40) hz1, View.ld_unit_zero (S := S1x1x40) hz3, View.ld_unit_zero (S := S1) hz1]
  funext y
  obtain ⟨p, u, e, rfl⟩ : ∃ (p : Fin 32) (u : Fin 1) (e : Fin 12), y = ix3 p u e := ⟨y 0, y 1, y 2, eq_ix3 y⟩
  refine (body_apply (iblk m c 0 t) (iblk m c 1 t) (iblk m c 2 t) (iblk m c 3 t) (iblk m c 4 t) (iblk m c 5 t)
    (iblk m c 6 t) (iblk m c 7 t) (iblk m c 8 t) (iblk m c 9 t) (iblk m c 10 t) (iblk m c 11 t) (iblk m c 12 t)
    (iblk m c 13 t) (iblk m c 14 t) (iblk m c 15 t) p u e).trans ?_
  rw [blk2 m c t, blk3 m c t, blk4 m c t, blk5 m c t, blk6 m c t, blk7 m c t, blk8 m c t, blk9 m c t, blk10 m c t,
    blk11 m c t, blk12 m c t, blk13 m c t, blk14 m c t, blk15 m c t]
  show _ = regionResult m c (((cfg0.win 16).blk t).view.emb (ix3 p u e))
  unfold regionResult result
  refine rowOut_congr _ _ (funext fun e' => ?_) (funext fun t' => funext fun e' => ?_) (Fin.ext ?_)
  · show V m c main_arg0 (((cfg0.win 0).blk t).view.emb (ix3 p (0 : Fin 1) e')) = _
    refine congrArg _ (funext fun a => Fin.ext ?_)
    match a with
    | ⟨0, _⟩ =>
      show win0_0.index t (0 : Fin 3) * 32 + 1 * p.val = win0_16.index t (0 : Fin 3) * 32 + 1 * p.val
      rw [idx0 t, idx16 t]
    | ⟨1, _⟩ =>
      show win0_0.index t (1 : Fin 3) * 1 + 1 * 0 = 0
      rw [idx0 t]; rfl
    | ⟨2, _⟩ =>
      show win0_0.index t (2 : Fin 3) * 12 + 1 * e'.val = e'.val
      rw [idx0 t]; show 0 * 12 + 1 * e'.val = e'.val; omega
  · show V m c main_arg1 (((cfg0.win 1).blk t).view.emb (ix3 p t' e')) = _
    refine congrArg _ (funext fun a => Fin.ext ?_)
    match a with
    | ⟨0, _⟩ =>
      show win0_1.index t (0 : Fin 3) * 32 + 1 * p.val = win0_16.index t (0 : Fin 3) * 32 + 1 * p.val
      rw [idx1 t, idx16 t]
    | ⟨1, _⟩ =>
      show win0_1.index t (1 : Fin 3) * 200 + 1 * t'.val = t'.val
      rw [idx1 t]; show 0 * 200 + 1 * t'.val = t'.val; omega
    | ⟨2, _⟩ =>
      show win0_1.index t (2 : Fin 3) * 12 + 1 * e'.val = e'.val
      rw [idx1 t]; show 0 * 12 + 1 * e'.val = e'.val; omega
  · show e.val = win0_16.index t (2 : Fin 3) * 12 + 1 * e.val
    rw [idx16 t]; show e.val = 0 * 12 + 1 * e.val; omega

/-! ## The blocks cover the array -/

/-- An index is in point t's block iff each coordinate is in the block's range on its axis. -/
theorem mem_blk (t : Fin cfg0.N) (i : S4096x1x12.Idx) :
    i ∈ ((cfg0.win 16).blk t).view.set ↔ ∀ a : Fin 3, win0_16.index t a * S32x1x12.size a ≤ (i a).val
      ∧ (i a).val < win0_16.index t a * S32x1x12.size a + S32x1x12.size a := by
  show i ∈ ((View.whole main_v13).slice (win0_16.rect t)).set ↔ _
  rw [View.set_slice_whole, Rect.mem_set_unit]
  exact Iff.rfl

/-- Row b lies in the block of point b / 32. -/
theorem cover (i : S4096x1x12.Idx) :
    ∃ t : Fin cfg0.N, (cfg0.win 16).flush t = true ∧ i ∈ ((cfg0.win 16).blk t).view.set := by
  have h0 : (i 0).val < 4096 := (i 0).isLt
  have h1 : (i 1).val < 1 := (i 1).isLt
  have h2 : (i 2).val < 12 := (i 2).isLt
  have hN : cfg0.N = 128 := N_0
  refine ⟨⟨(i 0).val / 32, by omega⟩, flush0_16 _, ?_⟩
  rw [mem_blk]
  intro a
  have ht := idx16 ⟨(i 0).val / 32, by omega⟩
  match a with
  | ⟨0, _⟩ =>
    show win0_16.index _ (0 : Fin 3) * 32 ≤ (i 0).val ∧ (i 0).val < win0_16.index _ (0 : Fin 3) * 32 + 32
    rw [ht]; show (i 0).val / 32 * 32 ≤ (i 0).val ∧ (i 0).val < (i 0).val / 32 * 32 + 32; omega
  | ⟨1, _⟩ =>
    show win0_16.index _ (1 : Fin 3) * 1 ≤ (i 1).val ∧ (i 1).val < win0_16.index _ (1 : Fin 3) * 1 + 1
    rw [ht]; show 0 * 1 ≤ (i 1).val ∧ (i 1).val < 0 * 1 + 1; omega
  | ⟨2, _⟩ =>
    show win0_16.index _ (2 : Fin 3) * 12 ≤ (i 2).val ∧ (i 2).val < win0_16.index _ (2 : Fin 3) * 12 + 12
    rw [ht]; show 0 * 12 ≤ (i 2).val ∧ (i 2).val < 0 * 12 + 12; omega

/-- The result array ends holding the unit's result. -/
theorem final (c : Dev nD) : (dats m 0 c).arrAt 16 cfg0.N = regionResult m c :=
  (dats m 0 c).arrAt_eq_of_cover 16 (regionResult m c) (fun t _ => flushed_eq m c t) cover

end Cert.KernelIdeal.BlockValue

end
-- ==== Proof.LibRowOverStack.lean ====
/-
  A row broadcast over a stack of matrices, read at an index.

  A row `[1, c]` viewed as `[1, 1, c]` and broadcast to `[a, b, c]` reads, at `(i, j, k)`, the row's entry `k`.
  Nothing here mentions a program.
-/
import Idealize.ShloMosaic.Lib.Pipeline.Value
import Idealize.ShloMosaic.Lib.ValueIdx

noncomputable section

namespace Cert.Lib.RowOverStack

open Idealize.ShloMosaic Idealize.ShloMosaic.ValueIdx

variable {α : Type}

/-- A row `[1, c]` viewed as `[1, 1, c]` reads, at `(0, 0, k)`, the row's entry `k`. -/
theorem lift_apply {c : ℕ} (x : (⟨2, ![1, c]⟩ : Shape).Idx → α)
    (h : (⟨2, ![1, c]⟩ : Shape).ShapeCasts ⟨3, ![1, 1, c]⟩) (k : Fin c) :
    shapeCast ⟨3, ![1, 1, c]⟩ x h (ix3 (0 : Fin 1) (0 : Fin 1) k) = x (ix2 (0 : Fin 1) k) :=
  shapeCast_apply x h _ _ (by
    rw [Shape.rowMajor_val_three, Shape.rowMajor_val_two]
    show 0 * c + k.val = (0 * 1 + 0) * c + k.val
    omega)

/-- A `[1, 1, c]` array broadcast to `[a, b, c]` reads, at `(i, j, k)`, the operand at `(0, 0, k)`. -/
theorem spread_apply {a b c : ℕ} (v : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ v h (ix3 i j k) = v (ix3 (0 : Fin 1) (0 : Fin 1) k) := by
  refine broadcastTo_apply v h (ix3 i j k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

/-- The two together: the row's entry `k` at every `(i, j, k)`. -/
theorem apply {a b c : ℕ} (x : (⟨2, ![1, c]⟩ : Shape).Idx → α)
    (h1 : (⟨2, ![1, c]⟩ : Shape).ShapeCasts ⟨3, ![1, 1, c]⟩) (h2 : (⟨3, ![1, 1, c]⟩ : Shape).Broadcasts ⟨3, ![a, b, c]⟩)
    (i : Fin a) (j : Fin b) (k : Fin c) :
    broadcastTo ⟨3, ![a, b, c]⟩ (shapeCast ⟨3, ![1, 1, c]⟩ x h1) h2 (ix3 i j k) = x (ix2 (0 : Fin 1) k) :=
  (spread_apply _ h2 i j k).trans (lift_apply x h1 k)

end Cert.Lib.RowOverStack

end
-- ==== Proof.KernelRun.lean ====
/-
  The kernel's run, read: the weights the region finds are the host's collection of the 48 × 80 first-layer matrix
  (rows 0–11 plus rows 24–35 for the query, rows 12–23 minus rows 24–35 for the keys, rows 36–47 for their product),
  the second-layer matrix unchanged, and the scoring matrix transposed into a row; so the result array ends holding the
  unit's result of the argument arrays.
-/
import proofs.«179337_j33956011442642_2_alg».proof.Proof.Gen.KernelIdeal.Value
import proofs.«179337_j33956011442642_2_alg».proof.Proof.Spec
import proofs.«179337_j33956011442642_2_alg».proof.Proof.SpecArrays
import proofs.«179337_j33956011442642_2_alg».proof.Proof.KernelValue
import proofs.«179337_j33956011442642_2_alg».proof.Proof.LibRowOverStack
import Idealize.ShloMosaic.Lib.Pipeline.Value
import Idealize.ShloMosaic.Lib.StableHlo.Run
import Idealize.ShloMosaic.Lib.ValueLayout

noncomputable section

namespace Cert.KernelIdeal.BlockValue

open Cert.KernelIdeal Cert.KernelIdeal.Gen Idealize.ShloMosaic Idealize.ShloMosaic.TcCoe Idealize.SL.Sem
open Idealize.ShloMosaic.ValueIdx Cert.ActUnit Idealize.ShloMosaic.StableHlo

variable (m : (ℓ : Loc nD τ sig) → Buf (Elt Ideal) ℓ) (ρ : Dev nD → PrngReg)

/-- Argument 0 as launched, at its shape. -/
abbrev arg0 (c : Dev nD) : S4096x1x12.Idx → EReal := m ((c : Thread nD τ).loc main_arg0)
/-- Argument 1 as launched, at its shape. -/
abbrev arg1 (c : Dev nD) : S4096x200x12.Idx → EReal := m ((c : Thread nD τ).loc main_arg1)
/-- Argument 3 as launched, at its shape. -/
abbrev arg3 (c : Dev nD) : S48x80.Idx → EReal := m ((c : Thread nD τ).loc main_arg3)
/-- Argument 4 as launched, at its shape. -/
abbrev arg4 (c : Dev nD) : S80.Idx → EReal := m ((c : Thread nD τ).loc main_arg4)
/-- Argument 5 as launched, at its shape. -/
abbrev arg5 (c : Dev nD) : S80x40.Idx → EReal := m ((c : Thread nD τ).loc main_arg5)
/-- Argument 6 as launched, at its shape. -/
abbrev arg6 (c : Dev nD) : S40.Idx → EReal := m ((c : Thread nD τ).loc main_arg6)
/-- Argument 7 as launched, at its shape. -/
abbrev arg7 (c : Dev nD) : S80.Idx → EReal := m ((c : Thread nD τ).loc main_arg7)
/-- Argument 8 as launched, at its shape. -/
abbrev arg8 (c : Dev nD) : S40.Idx → EReal := m ((c : Thread nD τ).loc main_arg8)
/-- Argument 9 as launched, at its shape. -/
abbrev arg9 (c : Dev nD) : S80.Idx → EReal := m ((c : Thread nD τ).loc main_arg9)
/-- Argument 10 as launched, at its shape. -/
abbrev arg10 (c : Dev nD) : S80.Idx → EReal := m ((c : Thread nD τ).loc main_arg10)
/-- Argument 11 as launched, at its shape. -/
abbrev arg11 (c : Dev nD) : S40.Idx → EReal := m ((c : Thread nD τ).loc main_arg11)
/-- Argument 12 as launched, at its shape. -/
abbrev arg12 (c : Dev nD) : S40.Idx → EReal := m ((c : Thread nD τ).loc main_arg12)
/-- Argument 13 as launched, at its shape. -/
abbrev arg13 (c : Dev nD) : S40x1.Idx → EReal := m ((c : Thread nD τ).loc main_arg13)
/-- Argument 14 as launched, at its shape. -/
abbrev arg14 (c : Dev nD) : S1.Idx → EReal := m ((c : Thread nD τ).loc main_arg14)

/-- The query's collected weights: rows e and 24 + e of the first-layer matrix, added. -/
theorem V_v7_apply (c : Dev nD) (e : Fin 12) (o : Fin 80) :
    (V m c main_v7 : S12x80.Idx → EReal) (ix2 e o)
      = arg3 m c (ix2 ⟨e.val, by omega⟩ o) + arg3 m c (ix2 ⟨24 + e.val, by omega⟩ o) := by
  have h : (V m c main_v7 : S12x80.Idx → EReal)
      = (truncf .bf16 (addf
          (extractStridedSlice S12x80 ![0, 0] (arg3 m c : FVec Ideal S48x80 .f32) slices_S48x80_S12x80_0_0)
          (extractStridedSlice S12x80 ![24, 0] (arg3 m c : FVec Ideal S48x80 .f32) slices_S48x80_S12x80_24_0))
          bitsLt_bf16_f32 : FVec Ideal S12x80 .bf16) := by
    dsimp only [Gen.V, Gen.hostOps0]; after_results; try rfl
  rw [h]
  show extractStridedSlice S12x80 ![0, 0] (arg3 m c) slices_S48x80_S12x80_0_0 (ix2 e o)
    + extractStridedSlice S12x80 ![24, 0] (arg3 m c) slices_S48x80_S12x80_24_0 (ix2 e o) = _
  exact congrArg₂ (· + ·)
    (slice2_axis0_apply 0 (arg3 m c) slices_S48x80_S12x80_0_0 e o ⟨e.val, by omega⟩ (Nat.zero_add _).symm)
    (slice2_axis0_apply 24 (arg3 m c) slices_S48x80_S12x80_24_0 e o ⟨24 + e.val, by omega⟩ rfl)

/-- The keys' collected weights: row 12 + e minus row 24 + e. -/
theorem V_v8_apply (c : Dev nD) (e : Fin 12) (o : Fin 80) :
    (V m c main_v8 : S12x80.Idx → EReal) (ix2 e o)
      = arg3 m c (ix2 ⟨12 + e.val, by omega⟩ o) - arg3 m c (ix2 ⟨24 + e.val, by omega⟩ o) := by
  have h : (V m c main_v8 : S12x80.Idx → EReal)
      = (truncf .bf16 (subf
          (extractStridedSlice S12x80 ![12, 0] (arg3 m c : FVec Ideal S48x80 .f32) slices_S48x80_S12x80_12_0)
          (extractStridedSlice S12x80 ![24, 0] (arg3 m c : FVec Ideal S48x80 .f32) slices_S48x80_S12x80_24_0))
          bitsLt_bf16_f32 : FVec Ideal S12x80 .bf16) := by
    dsimp only [Gen.V, Gen.hostOps0]; after_results; try rfl
  rw [h]
  show extractStridedSlice S12x80 ![12, 0] (arg3 m c) slices_S48x80_S12x80_12_0 (ix2 e o)
    - extractStridedSlice S12x80 ![24, 0] (arg3 m c) slices_S48x80_S12x80_24_0 (ix2 e o) = _
  exact congrArg₂ (· - ·)
    (slice2_axis0_apply 12 (arg3 m c) slices_S48x80_S12x80_12_0 e o ⟨12 + e.val, by omega⟩ rfl)
    (slice2_axis0_apply 24 (arg3 m c) slices_S48x80_S12x80_24_0 e o ⟨24 + e.val, by omega⟩ rfl)

/-- The product's weights: row 36 + e. -/
theorem V_v9_apply (c : Dev nD) (e : Fin 12) (o : Fin 80) :
    (V m c main_v9 : S12x80.Idx → EReal) (ix2 e o) = arg3 m c (ix2 ⟨36 + e.val, by omega⟩ o) := by
  have h : (V m c main_v9 : S12x80.Idx → EReal)
      = (truncf .bf16
          (extractStridedSlice S12x80 ![36, 0] (arg3 m c : FVec Ideal S48x80 .f32) slices_S48x80_S12x80_36_0)
          bitsLt_bf16_f32 : FVec Ideal S12x80 .bf16) := by
    dsimp only [Gen.V, Gen.hostOps0]; after_results; try rfl
  rw [h]
  exact slice2_axis0_apply 36 (arg3 m c) slices_S48x80_S12x80_36_0 e o ⟨36 + e.val, by omega⟩ rfl

/-- The second-layer matrix is the argument (a change of float format changes no value). -/
theorem V_v10_eq (c : Dev nD) : (V m c main_v10 : S80x40.Idx → EReal) = arg5 m c := by
  dsimp only [Gen.V, Gen.hostOps0]; after_results; try rfl

/-- The scoring row: entry j of the 40 × 1 scoring matrix. -/
theorem V_v12_apply (c : Dev nD) (j : Fin 40) :
    (V m c main_v12 : S1x1x40.Idx → EReal) (ix3 (0 : Fin 1) (0 : Fin 1) j) = arg13 m c (ix2 j (0 : Fin 1)) := by
  have h : (V m c main_v12 : S1x1x40.Idx → EReal)
      = shapeCast S1x1x40 (transpose S1x40 [1, 0] (arg13 m c) transposes_S40x1_S1x40_1_0) shapeCasts_S1x40_S1x1x40 := by
    dsimp only [Gen.V, Gen.hostOps0]; after_results; try rfl
  rw [h]
  exact (Cert.Lib.RowOverStack.lift_apply _ shapeCasts_S1x40_S1x1x40 j).trans
    (transpose_ix2_apply (arg13 m c) transposes_S40x1_S1x40_1_0 (0 : Fin 1) j)

/-- The unit's result from the arrays the region finds is the unit's result of the argument arrays. -/
theorem regionResult_eq (c : Dev nD) :
    regionResult m c = unitResult (arg0 m c) (arg1 m c) (arg3 m c) (arg4 m c) (arg5 m c) (arg6 m c) (arg7 m c)
      (arg8 m c) (arg9 m c) (arg10 m c) (arg11 m c) (arg12 m c) (arg13 m c) (arg14 m c) := by
  unfold regionResult unitResult
  have e7 : (fun (e : Fin 12) (o : Fin 80) => (V m c main_v7 : S12x80.Idx → EReal) (ix2 e o))
      = fun e o => arg3 m c (ix2 ⟨e.val, by omega⟩ o) + arg3 m c (ix2 ⟨24 + e.val, by omega⟩ o) :=
    funext fun e => funext fun o => V_v7_apply m c e o
  have e8 : (fun (e : Fin 12) (o : Fin 80) => (V m c main_v8 : S12x80.Idx → EReal) (ix2 e o))
      = fun e o => arg3 m c (ix2 ⟨12 + e.val, by omega⟩ o) - arg3 m c (ix2 ⟨24 + e.val, by omega⟩ o) :=
    funext fun e => funext fun o => V_v8_apply m c e o
  have e9 : (fun (e : Fin 12) (o : Fin 80) => (V m c main_v9 : S12x80.Idx → EReal) (ix2 e o))
      = fun e o => arg3 m c (ix2 ⟨36 + e.val, by omega⟩ o) :=
    funext fun e => funext fun o => V_v9_apply m c e o
  have e12 : (fun j : Fin 40 => (V m c main_v12 : S1x1x40.Idx → EReal) (ix3 (0 : Fin 1) (0 : Fin 1) j))
      = fun j => arg13 m c (ix2 j (0 : Fin 1)) := funext (V_v12_apply m c)
  have hL : layer0Of (V m c main_v7 : S12x80.Idx → EReal) (V m c main_v8 : S12x80.Idx → EReal)
      (V m c main_v9 : S12x80.Idx → EReal) (V m c main_arg4 : S80.Idx → EReal)
      = collect (fun i o => arg3 m c (ix2 i o)) (fun o => arg4 m c (ix1 o)) := by
    unfold layer0Of collect
    rw [e7, e8, e9, V_main_arg4 m c]
  rw [hL, e12, V_v10_eq m c, V_main_arg0 m c, V_main_arg1 m c, V_main_arg6 m c, V_main_arg7 m c, V_main_arg8 m c,
    V_main_arg9 m c, V_main_arg10 m c, V_main_arg11 m c, V_main_arg12 m c, V_main_arg14 m c]

/-- After the run the result array holds the unit's result of the argument arrays. -/
theorem result16 (c : Dev nD) :
    (dats m 0 c).arrAt 16 cfg0.N = unitResult (arg0 m c) (arg1 m c) (arg3 m c) (arg4 m c) (arg5 m c) (arg6 m c)
      (arg7 m c) (arg8 m c) (arg9 m c) (arg10 m c) (arg11 m c) (arg12 m c) (arg13 m c) (arg14 m c) :=
  (final m c).trans (regionResult_eq m c)

end Cert.KernelIdeal.BlockValue

end
-- ==== Proof.LibJoinFour.lean ====
/-
  Four stacks of one shape [A, B, K] joined along the last axis into [A, B, W], the pieces given as a literal list,
  read at an index: coordinate n·K + e on the joined axis is entry e of piece n, on the same (a, b).
  Nothing here mentions a program.
-/
import Idealize.ShloMosaic.Lib.ValueIdx
import Idealize.ShloMosaic.Lib.Pipeline.Value

namespace Cert.Lib.JoinFour

open Idealize.ShloMosaic Idealize.ShloMosaic.ValueIdx

variable {α : Type} {A B K W : ℕ}
  (f0 f1 f2 f3 : (⟨3, ![A, B, K]⟩ : Shape).Idx → α)
  (h : Shape.Concatenates
    (([⟨⟨3, ![A, B, K]⟩, f0⟩, ⟨⟨3, ![A, B, K]⟩, f1⟩, ⟨⟨3, ![A, B, K]⟩, f2⟩, ⟨⟨3, ![A, B, K]⟩, f3⟩] :
      List ((s : Shape) × (s.Idx → α))).map (·.1)) ⟨3, ![A, B, W]⟩ 2)
  (a : Fin A) (b : Fin B) (l : Fin W) (e : Fin K)

private theorem off_axis (i : (⟨3, ![A, B, K]⟩ : Shape).Idx) (hi : i = ix3 a b e) :
    ∀ d : Fin (⟨3, ![A, B, K]⟩ : Shape).rank, d.cast (rfl : (⟨3, ![A, B, K]⟩ : Shape).rank = (⟨3, ![A, B, W]⟩ : Shape).rank) ≠ (2 : Fin 3) →
      (i d).val = ((ix3 a b l : (⟨3, ![A, B, W]⟩ : Shape).Idx) (d.cast rfl)).val := by
  subst hi
  intro d hd
  match d with
  | ⟨0, _⟩ => rfl
  | ⟨1, _⟩ => rfl
  | ⟨2, _⟩ => exact absurd rfl hd

/-- Coordinates 0 … K − 1 of the joined axis are the first piece. -/
theorem piece0 (hl : l.val = e.val) :
    concatenate ⟨3, ![A, B, W]⟩ 2 [⟨⟨3, ![A, B, K]⟩, f0⟩, ⟨⟨3, ![A, B, K]⟩, f1⟩, ⟨⟨3, ![A, B, K]⟩, f2⟩, ⟨⟨3, ![A, B, K]⟩, f3⟩] h
      (ix3 a b l) = f0 (ix3 a b e) :=
  concatenate_apply_piece (2 : Fin 3) _ h (ix3 a b l) 0 (by simp) ⟨3, ![A, B, K]⟩ f0 rfl rfl 0 rfl (ix3 a b e)
    (off_axis a b l e _ rfl) (by show 0 + e.val = l.val; omega)

/-- Coordinates K … 2K − 1 are the second piece. -/
theorem piece1 (hl : l.val = K + e.val) :
    concatenate ⟨3, ![A, B, W]⟩ 2 [⟨⟨3, ![A, B, K]⟩, f0⟩, ⟨⟨3, ![A, B, K]⟩, f1⟩, ⟨⟨3, ![A, B, K]⟩, f2⟩, ⟨⟨3, ![A, B, K]⟩, f3⟩] h
      (ix3 a b l) = f1 (ix3 a b e) :=
  concatenate_apply_piece (2 : Fin 3) _ h (ix3 a b l) 1 (by simp) ⟨3, ![A, B, K]⟩ f1 rfl rfl K (by simp) (ix3 a b e)
    (off_axis a b l e _ rfl) (by show K + e.val = l.val; omega)

/-- Coordinates 2K … 3K − 1 are the third piece. -/
theorem piece2 (hl : l.val = K + K + e.val) :
    concatenate ⟨3, ![A, B, W]⟩ 2 [⟨⟨3, ![A, B, K]⟩, f0⟩, ⟨⟨3, ![A, B, K]⟩, f1⟩, ⟨⟨3, ![A, B, K]⟩, f2⟩, ⟨⟨3, ![A, B, K]⟩, f3⟩] h
      (ix3 a b l) = f2 (ix3 a b e) :=
  concatenate_apply_piece (2 : Fin 3) _ h (ix3 a b l) 2 (by simp) ⟨3, ![A, B, K]⟩ f2 rfl rfl (K + K) (by simp) (ix3 a b e)
    (off_axis a b l e _ rfl) (by show K + K + e.val = l.val; omega)

/-- Coordinates 3K … 4K − 1 are the fourth piece. -/
theorem piece3 (hl : l.val = K + K + K + e.val) :
    concatenate ⟨3, ![A, B, W]⟩ 2 [⟨⟨3, ![A, B, K]⟩, f0⟩, ⟨⟨3, ![A, B, K]⟩, f1⟩, ⟨⟨3, ![A, B, K]⟩, f2⟩, ⟨⟨3, ![A, B, K]⟩, f3⟩] h
      (ix3 a b l) = f3 (ix3 a b e) :=
  concatenate_apply_piece (2 : Fin 3) _ h (ix3 a b l) 3 (by simp) ⟨3, ![A, B, K]⟩ f3 rfl rfl (K + K + K) (by simp [Nat.add_assoc]) (ix3 a b e)
    (off_axis a b l e _ rfl) (by show K + K + K + e.val = l.val; omega)

end Cert.Lib.JoinFour
-- ==== Proof.LibRealSums.lean ====
/-
  Finite sums of real numbers inside the extended reals, and the few float constants a mean over 64 rows and a
  batch-norm scale spell.

  On the extended reals multiplication does not distribute over a sum that mixes `⊤` and `⊥`; on real numbers it
  does. So a sum of products of real numbers, scaled by a real number, is the sum of the products with the scale moved
  inside each term:  (Σ_k x_k · w_k) · v = Σ_k x_k · (w_k · v).  A sum over `a + b` consecutive terms is the sum of its
  two stretches (associativity only, no finiteness). A quotient by the real 64 is the product with 1/64. For a real
  `s ≥ 0` and the f32 constant `ε = 0x3727C5AC > 0`, `γ · rsqrt (s + ε)` is a real number when `γ` is.
-/
import Mathlib.Algebra.BigOperators.Fin
import Idealize.ShloMosaic.PureOps.Ideal

noncomputable section

namespace Cert.LibRealSums

open Idealize.ShloMosaic

/-- An extended real that is a real number. -/
def IsReal (x : EReal) : Prop := ∃ r : ℝ, x = (r : EReal)

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum of products of reals, times a real, is the sum with the factor moved inside each product. -/
theorem sum_mul_real {n : ℕ} (x w : Fin n → EReal) (v : EReal) (hx : ∀ k, IsReal (x k)) (hw : ∀ k, IsReal (w k))
    (hv : IsReal v) : (∑ k, x k * w k) * v = ∑ k, x k * (w k * v) := by
  choose xr hxr using hx
  choose wr hwr using hw
  obtain ⟨vr, rfl⟩ := hv
  simp only [hxr, hwr, ← EReal.coe_mul, ← coe_sum]
  congr 1
  rw [Finset.sum_mul]
  exact Finset.sum_congr rfl fun k _ => mul_assoc _ _ _

/-- A sum of products of reals is a real. -/
theorem isReal_sum_mul {n : ℕ} (x w : Fin n → EReal) (hx : ∀ k, IsReal (x k)) (hw : ∀ k, IsReal (w k)) :
    IsReal (∑ k, x k * w k) := by
  choose xr hxr using hx
  choose wr hwr using hw
  refine ⟨∑ k, xr k * wr k, ?_⟩
  simp only [hxr, hwr, ← EReal.coe_mul, ← coe_sum]

/-- On real numbers multiplication distributes over a sum of two. -/
theorem add_mul_real (a b v : EReal) (ha : IsReal a) (hb : IsReal b) (hv : IsReal v) : (a + b) * v = a * v + b * v := by
  obtain ⟨ar, rfl⟩ := ha
  obtain ⟨br, rfl⟩ := hb
  obtain ⟨vr, rfl⟩ := hv
  rw [← EReal.coe_add, ← EReal.coe_mul, ← EReal.coe_mul, ← EReal.coe_mul, ← EReal.coe_add, add_mul]

/-- The sum of two reals is a real. -/
theorem isReal_add (a b : EReal) (ha : IsReal a) (hb : IsReal b) : IsReal (a + b) := by
  obtain ⟨ar, rfl⟩ := ha
  obtain ⟨br, rfl⟩ := hb
  exact ⟨ar + br, (EReal.coe_add ar br).symm⟩

/-- `∑ k < a + b, f k = ∑ k < a, f k + ∑ k < b, f (a + k)`. -/
theorem sum_two {M : Type*} [AddCommMonoid M] (a b n : ℕ) (h : n = a + b) (f : Fin n → M) :
    ∑ k, f k = ∑ k : Fin a, f ⟨k.val, by have := k.isLt; omega⟩ + ∑ k : Fin b, f ⟨a + k.val, by have := k.isLt; omega⟩ := by
  subst h
  rw [Fin.sum_univ_add]
  rfl

/-- The f32 pattern of `+0.0` is the real zero. -/
theorem ofBits_zero : Ideal.ofBits .f32 0x00000000#32 = (0 : EReal) := by
  simp [Ideal.ofBits, Ideal.ieee]

/-- The f32 pattern `0x42800000` is the real 64. -/
theorem ofBits_64 : Ideal.ofBits .f32 0x42800000#32 = ((64 : ℝ) : EReal) := by
  simp [Ideal.ofBits, Ideal.ieee, -EReal.coe_mul]; norm_num

/-- The f32 pattern `0x3C800000` is the real 1/64. -/
theorem ofBits_inv64 : Ideal.ofBits .f32 0x3C800000#32 = ((1 / 64 : ℝ) : EReal) := by
  simp [Ideal.ofBits, Ideal.ieee, -EReal.coe_mul]; norm_num

/-- A quotient by the f32 constant 64 is the product with the f32 constant 1/64. -/
theorem div_64 (x : EReal) :
    Ideal.div x (Ideal.ofBits .f32 0x42800000#32) = x * Ideal.ofBits .f32 0x3C800000#32 := by
  rw [ofBits_64, ofBits_inv64]
  exact Ideal.div_coe (by norm_num) x

/-- The f32 pattern `0x3727C5AC` (the batch-norm ε) is a positive real. -/
theorem eps_pos : ∃ e : ℝ, 0 < e ∧ Ideal.ofBits .f32 0x3727C5AC#32 = (e : EReal) := by
  refine ⟨(10995116 : ℝ) / 2 ^ 40, by positivity, ?_⟩
  simp [Ideal.ofBits, Ideal.ieee, -EReal.coe_mul]; norm_num

/-- For real `γ`, real `s ≥ 0` and the constant ε, `γ · rsqrt (s + ε)` is a real number. -/
theorem scale_isReal (g s : EReal) (hg : IsReal g) (hs : ∃ r : ℝ, 0 ≤ r ∧ s = (r : EReal)) :
    IsReal (g * Ideal.rsqrt (s + Ideal.ofBits .f32 0x3727C5AC#32)) := by
  obtain ⟨gr, rfl⟩ := hg
  obtain ⟨sr, hs0, rfl⟩ := hs
  obtain ⟨e, he, hE⟩ := eps_pos
  rw [hE, ← EReal.coe_add, Ideal.rsqrt_coe, if_neg (by linarith), if_neg (by linarith), ← EReal.coe_mul]
  exact ⟨_, rfl⟩

end Cert.LibRealSums

end
-- ==== Proof.RefLayer0.lean ====
/-
  The reference's first layer, read at one entry: for batch row b and key t the 48 joined features are the query row,
  the key row, their difference and their product laid end to end, so the contraction with the 48 × 80 matrix is the
  sum of four stretches of twelve — the joined form of the first layer's sums — plus the bias.
-/
import proofs.«179337_j33956011442642_2_alg».proof.Proof.Gen.ReferenceIdeal.Read
import proofs.«179337_j33956011442642_2_alg».proof.Proof.Spec
import proofs.«179337_j33956011442642_2_alg».proof.Proof.LibJoinFour
import proofs.«179337_j33956011442642_2_alg».proof.Proof.LibRealSums

noncomputable section

namespace Cert.ReferenceIdeal.RefValue

open Cert.ReferenceIdeal Cert.ReferenceIdeal.Read Idealize.ShloMosaic Idealize.ShloMosaic.ValueIdx
open Cert.ActUnit Cert.Lib.JoinFour

local macro "idx_rfl3" : term => `(funext fun a => by match a with | ⟨0, _⟩ => rfl | ⟨1, _⟩ => rfl | ⟨2, _⟩ => rfl)
local macro "idx_rfl2" : term => `(funext fun a => by match a with | ⟨0, _⟩ => rfl | ⟨1, _⟩ => rfl)
local macro "idx_rfl1" : term => `(funext fun a => by match a with | ⟨0, _⟩ => rfl)

variable (x0 : (⟨S4096x1x12, .f32⟩ : BufTy).Contents (Elt Ideal)) (x1 : (⟨S4096x200x12, .f32⟩ : BufTy).Contents (Elt Ideal))
  (x3 : (⟨S48x80, .f32⟩ : BufTy).Contents (Elt Ideal)) (x4 : (⟨S80, .f32⟩ : BufTy).Contents (Elt Ideal))

/-- The query row laid over its 200 keys. -/
theorem v0_apply (b : Fin 4096) (t : Fin 200) (e : Fin 12) :
    val_main_v0 (F := Ideal) x0 (ix3 b t e) = x0 (ix3 b (0 : Fin 1) e) :=
  (val_main_v0_apply x0 _).trans (congrArg x0 idx_rfl3)

/-- Joined features 0 … 11: the query row. -/
theorem v3_q (b : Fin 4096) (t : Fin 200) (e : Fin 12) (l : Fin 48) (hl : l.val = e.val) :
    val_main_v3 (F := Ideal) x0 x1 (ix3 b t l) = x0 (ix3 b (0 : Fin 1) e) := by
  unfold val_main_v3
  exact (piece0 _ _ _ _ _ b t l e hl).trans (v0_apply x0 b t e)

/-- Joined features 12 … 23: the key row. -/
theorem v3_k (b : Fin 4096) (t : Fin 200) (e : Fin 12) (l : Fin 48) (hl : l.val = 12 + e.val) :
    val_main_v3 (F := Ideal) x0 x1 (ix3 b t l) = x1 (ix3 b t e) := by
  unfold val_main_v3
  exact piece1 _ _ _ _ _ b t l e hl

/-- Joined features 24 … 35: query minus key. -/
theorem v3_d (b : Fin 4096) (t : Fin 200) (e : Fin 12) (l : Fin 48) (hl : l.val = 12 + 12 + e.val) :
    val_main_v3 (F := Ideal) x0 x1 (ix3 b t l) = x0 (ix3 b (0 : Fin 1) e) - x1 (ix3 b t e) := by
  unfold val_main_v3
  refine (piece2 _ _ _ _ _ b t l e hl).trans ?_
  rw [val_main_v1_apply, v0_apply]
  rfl

/-- Joined features 36 … 47: query times key. -/
theorem v3_p (b : Fin 4096) (t : Fin 200) (e : Fin 12) (l : Fin 48) (hl : l.val = 12 + 12 + 12 + e.val) :
    val_main_v3 (F := Ideal) x0 x1 (ix3 b t l) = x0 (ix3 b (0 : Fin 1) e) * x1 (ix3 b t e) := by
  unfold val_main_v3
  refine (piece3 _ _ _ _ _ b t l e hl).trans ?_
  rw [val_main_v2_apply, v0_apply]
  rfl

/-- The reference's first layer at (b, t, o): the joined form of the first layer's sums. -/
theorem v7_apply (b : Fin 4096) (t : Fin 200) (o : Fin 80) :
    val_main_v7 (F := Ideal) x0 x1 x3 x4 (ix3 b t o)
      = pre0Joined (fun i o => x3 (ix2 i o)) (fun o => x4 (ix1 o)) (fun e => x0 (ix3 b (0 : Fin 1) e))
          (fun e => x1 (ix3 b t e)) o := by
  rw [val_main_v7_apply, val_main_v4_apply, val_main_v6_apply, val_main_v5_apply]
  unfold pre0Joined
  refine congrArg₂ (· + ·) ?_ (congrArg x4 idx_rfl1)
  rw [Cert.LibRealSums.sum_two 36 12 48 rfl, Cert.LibRealSums.sum_two 24 12 36 rfl, Cert.LibRealSums.sum_two 12 12 24 rfl]
  have hl : ∀ k : Fin 48, lidx_main_v4 (ix3 b t o) k = ix3 b t k := fun k => idx_rfl3
  have hr : ∀ k : Fin 48, ridx_main_v4 (ix3 b t o) k = ix2 k o := fun k => idx_rfl2
  simp only [hl, hr]
  refine congrArg₂ (· + ·) (congrArg₂ (· + ·) (congrArg₂ (· + ·) ?_ ?_) ?_) ?_ <;>
    refine Finset.sum_congr rfl fun e _ => congrArg (· * _) ?_
  · exact v3_q x0 x1 b t e _ rfl
  · exact v3_k x0 x1 b t e _ rfl
  · exact v3_d x0 x1 b t e _ rfl
  · exact v3_p x0 x1 b t e _ rfl

end Cert.ReferenceIdeal.RefValue

end
-- ==== Proof.RefTail.lean ====
/-
  The reference after its first layer, one stage at a time at an entry: the first gate (its logistic spelt
  1/(1 + e^(−z))), the second layer's contraction and bias, the second gate, the scoring contraction and bias, and the
  final batched product Σ_t score(b, t)·key(b, t, e); and so the whole reference as the unit's result, when the query, the
  keys and the first-layer matrix hold real numbers.
-/
import proofs.«179337_j33956011442642_2_alg».proof.Proof.Gen.ReferenceIdeal.Read
import proofs.«179337_j33956011442642_2_alg».proof.Proof.Spec
import proofs.«179337_j33956011442642_2_alg».proof.Proof.SpecArrays
import proofs.«179337_j33956011442642_2_alg».proof.Proof.RefLayer0

noncomputable section

namespace Cert.ReferenceIdeal.RefValue

open Cert.ReferenceIdeal Cert.ReferenceIdeal.Read Idealize.ShloMosaic Idealize.ShloMosaic.ValueIdx
open Cert.ActUnit

local macro "idx_rfl3" : term => `(funext fun a => by match a with | ⟨0, _⟩ => rfl | ⟨1, _⟩ => rfl | ⟨2, _⟩ => rfl)
local macro "idx_rfl2" : term => `(funext fun a => by match a with | ⟨0, _⟩ => rfl | ⟨1, _⟩ => rfl)
local macro "idx_rfl1" : term => `(funext fun a => by match a with | ⟨0, _⟩ => rfl)

variable (x0 : (⟨S4096x1x12, .f32⟩ : BufTy).Contents (Elt Ideal)) (x1 : (⟨S4096x200x12, .f32⟩ : BufTy).Contents (Elt Ideal))
  (x3 : (⟨S48x80, .f32⟩ : BufTy).Contents (Elt Ideal)) (x4 : (⟨S80, .f32⟩ : BufTy).Contents (Elt Ideal))
  (x5 : (⟨S80x40, .f32⟩ : BufTy).Contents (Elt Ideal)) (x6 : (⟨S40, .f32⟩ : BufTy).Contents (Elt Ideal))
  (x7 : (⟨S80, .f32⟩ : BufTy).Contents (Elt Ideal)) (x8 : (⟨S40, .f32⟩ : BufTy).Contents (Elt Ideal))
  (x9 x10 : (⟨S80, .f32⟩ : BufTy).Contents (Elt Ideal)) (x11 x12 : (⟨S40, .f32⟩ : BufTy).Contents (Elt Ideal))
  (x13 : (⟨S40x1, .f32⟩ : BufTy).Contents (Elt Ideal)) (x14 : (⟨S1, .f32⟩ : BufTy).Contents (Elt Ideal))

/-- The first gate at (b, t, o). -/
theorem v29_apply (b : Fin 4096) (t : Fin 200) (o : Fin 80) :
    val_main_v29 (F := Ideal) x0 x1 x3 x4 x7 x9 x10 (ix3 b t o)
      = gate (val_main_v7 (F := Ideal) x0 x1 x3 x4 (ix3 b t o)) (x7 (ix1 o)) (x9 (ix1 o)) (x10 (ix1 o)) := by
  simp only [val_main_v29_apply, val_main_v28_apply, val_main_v27_apply, val_main_v26_apply, val_main_v25_apply, val_main_v24_apply, val_main_v23_apply, val_main_v22_apply, val_main_v21_apply, val_main_v20_apply, val_main_v19_apply, val_main_v18_apply, val_main_v17_apply, val_main_v16_apply, val_main_v15_apply, val_main_v14_apply, val_main_v13_apply, val_main_v12_apply, val_main_v11_apply, val_main_v10_apply, val_main_v9_apply, val_main_v8_apply, val_main_cst_apply, val_main_cst_0_apply, val_main_cst_1_apply, val_main_cst_2_apply]
  have h7 : idx_main_v25 (idx_main_v26 (ix3 b t o)) = ix1 o := idx_rfl1
  have h9 : idx_main_v8 (idx_main_v9 (ix3 b t o)) = ix1 o := idx_rfl1
  have h10 : idx_main_v14 (idx_main_v15 (ix3 b t o)) = ix1 o := idx_rfl1
  rw [h7, h9, h10]
  exact gate_spelt _ _ _ _

/-- The second layer's contraction and bias at (b, t, j). -/
theorem v33_apply (b : Fin 4096) (t : Fin 200) (j : Fin 40) :
    val_main_v33 (F := Ideal) x0 x1 x3 x4 x5 x6 x7 x9 x10 (ix3 b t j)
      = (∑ i : Fin 80, val_main_v29 (F := Ideal) x0 x1 x3 x4 x7 x9 x10 (ix3 b t i) * x5 (ix2 i j)) + x6 (ix1 j) := by
  rw [val_main_v33_apply, val_main_v30_apply, val_main_v32_apply, val_main_v31_apply]
  have hl : ∀ k : Fin 80, lidx_main_v30 (ix3 b t j) k = ix3 b t k := fun k => idx_rfl3
  have hr : ∀ k : Fin 80, ridx_main_v30 (ix3 b t j) k = ix2 k j := fun k => idx_rfl2
  have h6 : idx_main_v31 (idx_main_v32 (ix3 b t j)) = ix1 j := idx_rfl1
  simp only [hl, hr, h6]
  rfl

/-- The second gate at (b, t, j). -/
theorem v55_apply (b : Fin 4096) (t : Fin 200) (j : Fin 40) :
    val_main_v55 (F := Ideal) x0 x1 x3 x4 x5 x6 x7 x8 x9 x10 x11 x12 (ix3 b t j)
      = gate (val_main_v33 (F := Ideal) x0 x1 x3 x4 x5 x6 x7 x9 x10 (ix3 b t j)) (x8 (ix1 j)) (x11 (ix1 j)) (x12 (ix1 j)) := by
  simp only [val_main_v55_apply, val_main_v54_apply, val_main_v53_apply, val_main_v52_apply, val_main_v51_apply, val_main_v50_apply, val_main_v49_apply, val_main_v48_apply, val_main_v47_apply, val_main_v46_apply, val_main_v45_apply, val_main_v44_apply, val_main_v43_apply, val_main_v42_apply, val_main_v41_apply, val_main_v40_apply, val_main_v39_apply, val_main_v38_apply, val_main_v37_apply, val_main_v36_apply, val_main_v35_apply, val_main_v34_apply, val_main_cst_3_apply, val_main_cst_4_apply, val_main_cst_5_apply, val_main_cst_6_apply]
  have h8 : idx_main_v51 (idx_main_v52 (ix3 b t j)) = ix1 j := idx_rfl1
  have h11 : idx_main_v34 (idx_main_v35 (ix3 b t j)) = ix1 j := idx_rfl1
  have h12 : idx_main_v40 (idx_main_v41 (ix3 b t j)) = ix1 j := idx_rfl1
  rw [h8, h11, h12]
  exact gate_spelt _ _ _ _

/-- The score with its bias at (b, t, ·). -/
theorem v59_apply (b : Fin 4096) (t : Fin 200) (u : Fin 1) :
    val_main_v59 (F := Ideal) x0 x1 x3 x4 x5 x6 x7 x8 x9 x10 x11 x12 x13 x14 (ix3 b t u)
      = (∑ i : Fin 40, val_main_v55 (F := Ideal) x0 x1 x3 x4 x5 x6 x7 x8 x9 x10 x11 x12 (ix3 b t i) * x13 (ix2 i (0 : Fin 1)))
        + x14 (ix1 (0 : Fin 1)) := by
  obtain rfl : u = 0 := Subsingleton.elim _ _
  rw [val_main_v59_apply, val_main_v56_apply, val_main_v58_apply, val_main_v57_apply]
  have hl : ∀ k : Fin 40, lidx_main_v56 (ix3 b t (0 : Fin 1)) k = ix3 b t k := fun k => idx_rfl3
  have hr : ∀ k : Fin 40, ridx_main_v56 (ix3 b t (0 : Fin 1)) k = ix2 k (0 : Fin 1) := fun k => idx_rfl2
  have h14 : idx_main_v57 (idx_main_v58 (ix3 b t (0 : Fin 1))) = ix1 (0 : Fin 1) := idx_rfl1
  simp only [hl, hr, h14]
  rfl

/-- The result at (b, ·, e): Σ_t score(b, t)·key(b, t, e). -/
theorem v61_apply (b : Fin 4096) (u : Fin 1) (e : Fin 12) :
    val_main_v61 (F := Ideal) x0 x1 x3 x4 x5 x6 x7 x8 x9 x10 x11 x12 x13 x14 (ix3 b u e)
      = ∑ t : Fin 200, val_main_v59 (F := Ideal) x0 x1 x3 x4 x5 x6 x7 x8 x9 x10 x11 x12 x13 x14 (ix3 b t (0 : Fin 1)) * x1 (ix3 b t e) := by
  obtain rfl : u = 0 := Subsingleton.elim _ _
  rw [val_main_v61_apply]
  refine Finset.sum_congr rfl fun t _ => ?_
  rw [val_main_v60_apply]
  have hl : idx_main_v60 (lidx_main_v61 (ix3 b (0 : Fin 1) e) t) = ix3 b t (0 : Fin 1) := idx_rfl3
  have hr : ridx_main_v61 (ix3 b (0 : Fin 1) e) t = ix3 b t e := idx_rfl3
  rw [hl, hr]

/-- The reference computes the unit's result, when the query, the keys and the first-layer matrix are real. -/
theorem reference_eq (hq : ∀ i, IsReal (x0 i)) (hk : ∀ i, IsReal (x1 i)) (hw : ∀ i, IsReal (x3 i)) :
    val_main_v61 (F := Ideal) x0 x1 x3 x4 x5 x6 x7 x8 x9 x10 x11 x12 x13 x14
      = unitResult x0 x1 x3 x4 x5 x6 x7 x8 x9 x10 x11 x12 x13 x14 := by
  funext i
  obtain ⟨b, u, e, rfl⟩ : ∃ (b : Fin 4096) (u : Fin 1) (e : Fin 12), i = ix3 b u e := ⟨i 0, i 1, i 2, eq_ix3 i⟩
  rw [v61_apply]
  unfold unitResult result rowOut score
  refine Finset.sum_congr rfl fun t _ => ?_
  refine congrArg (· * x1 (ix3 b t e)) ?_
  rw [v59_apply]
  refine congrArg (· + x14 (ix1 (0 : Fin 1))) ?_
  refine Finset.sum_congr rfl fun j _ => ?_
  refine congrArg (· * x13 (ix2 j (0 : Fin 1))) ?_
  rw [v55_apply, v33_apply]
  refine congrArg (fun z => gate (z + x6 (ix1 j)) (x8 (ix1 j)) (x11 (ix1 j)) (x12 (ix1 j))) ?_
  refine Finset.sum_congr rfl fun k _ => ?_
  refine congrArg (· * x5 (ix2 k j)) ?_
  rw [v29_apply, v7_apply, pre0Joined_eq _ _ _ _ _ (fun i o => hw _) (fun e => hq _) (fun e => hk _)]
  rfl

end Cert.ReferenceIdeal.RefValue

end
-- ==== Proof.Finite.lean ====
/-
  What the precondition says of the three arrays the distributive law needs: every entry of the query array, of the key
  array and of the first-layer matrix is a real number.  The precondition is a conjunction, one conjunct per float
  input, each "every entry's magnitude is below +∞"; an extended real whose magnitude is below +∞ is a real.
-/
import proofs.«179337_j33956011442642_2_alg».proof.Pre_finite_inputs
import proofs.«179337_j33956011442642_2_alg».proof.Proof.Spec
import Idealize.ShloMosaic.Lib.ReduceAll
import Idealize.ShloMosaic.Lib.ValueIdx
import Idealize.ShloMosaic.PureOps.Ideal.Laws

noncomputable section

namespace Cert.Pre_finite_inputs.Decode

open Cert.Pre_finite_inputs Idealize.ShloMosaic Idealize.ShloMosaic.ValueIdx Cert.ActUnit

variable [Cert.Pre_finite_inputs.Facts]

instance : Subsingleton S_.Idx := ⟨fun a b => funext fun d => d.elim0⟩

/-- An extended real whose magnitude is below the f32 word of +∞ is a real number. -/
theorem isReal_of_abs_lt_inf (x : EReal)
    (h : FloatOps.cmpf (F := Ideal) (φ := .f32) .olt (FloatOps.hostAbsf x) (FloatOps.ofBits (F := Ideal) .f32 0x7F800000#32) = 1#1) :
    IsReal x := by
  have htop : Ideal.ofBits .f32 0x7F800000#32 = ⊤ := by simp [Ideal.ofBits, Ideal.ieee]
  change Ideal.cmp .olt (max x (-x)) (Ideal.ofBits .f32 0x7F800000#32) = 1#1 at h
  rw [htop] at h
  unfold Ideal.cmp at h
  have hlt : max x (-x) < ⊤ := by
    by_contra hn
    simp [hn] at h
  rw [max_lt_iff] at hlt
  induction x using EReal.rec with
  | bot => simp at hlt
  | top => simp at hlt
  | coe r => exact ⟨r, rfl⟩

/-- Under the precondition the query array, the key array and the first-layer matrix hold real numbers. -/
theorem reals_of_pre (a0 : FVec Ideal S4096x1x12 .f32) (a1 : FVec Ideal S4096x200x12 .f32) (a2 : IVec S4096x200 1)
    (a3 : FVec Ideal S48x80 .f32) (a4 : FVec Ideal S80 .f32) (a5 : FVec Ideal S80x40 .f32) (a6 : FVec Ideal S40 .f32)
    (a7 : FVec Ideal S80 .f32) (a8 : FVec Ideal S40 .f32) (a9 a10 : FVec Ideal S80 .f32) (a11 a12 : FVec Ideal S40 .f32)
    (a13 : FVec Ideal S40x1 .f32) (a14 : FVec Ideal S1 .f32)
    (h : fn (F := Ideal) a0 a1 a2 a3 a4 a5 a6 a7 a8 a9 a10 a11 a12 a13 a14 = fun _ => 1#1) :
    (∀ i, IsReal (a0 i)) ∧ (∀ i, IsReal (a1 i)) ∧ (∀ i, IsReal (a3 i)) := by
  have h68 := congrFun h ix0
  dsimp only [fn, fn_part1, fn_part2, fn_part3, fn_part4] at h68
  obtain ⟨h63, -⟩ := IntOp.andi_eq_one.1 h68
  obtain ⟨h58, -⟩ := IntOp.andi_eq_one.1 h63
  obtain ⟨h53, -⟩ := IntOp.andi_eq_one.1 h58
  obtain ⟨h48, -⟩ := IntOp.andi_eq_one.1 h53
  obtain ⟨h43, -⟩ := IntOp.andi_eq_one.1 h48
  obtain ⟨h38, -⟩ := IntOp.andi_eq_one.1 h43
  obtain ⟨h33, -⟩ := IntOp.andi_eq_one.1 h38
  obtain ⟨h28, -⟩ := IntOp.andi_eq_one.1 h33
  obtain ⟨h23, -⟩ := IntOp.andi_eq_one.1 h28
  obtain ⟨h18, -⟩ := IntOp.andi_eq_one.1 h23
  obtain ⟨h13, -⟩ := IntOp.andi_eq_one.1 h18
  obtain ⟨h8, h12⟩ := IntOp.andi_eq_one.1 h13
  obtain ⟨h3, h7⟩ := IntOp.andi_eq_one.1 h8
  exact ⟨fun i => isReal_of_abs_lt_inf _ (Host.reduce_andi_all _ _ _ _ ix0 h3 i),
    fun i => isReal_of_abs_lt_inf _ (Host.reduce_andi_all _ _ _ _ ix0 h7 i),
    fun i => isReal_of_abs_lt_inf _ (Host.reduce_andi_all _ _ _ _ ix0 h12 i)⟩

end Cert.Pre_finite_inputs.Decode

end
-- ==== Proof.lean ====
/-
  A local activation unit (DIN-style attention) over 4096 query rows, each with 200 key rows of 12 features: every key
  is scored by a two-layer gated network on the joined features (q, k, q − k, q·k), and the output row is Σ_t score_t·k_t.

  The kernel handles 32 batch rows per grid point.  It never forms the 48 joined features: the host collects the 48 × 80
  first-layer matrix by operand (rows 0–11 plus rows 24–35 for q, rows 12–23 minus rows 24–35 for k, rows 36–47 for q·k)
  and the body takes three small products on the flattened 6400 key rows; the scoring contraction is a multiply and a
  sum along the last axis, and the final batched product a multiply and a sum over the keys.  The reference joins the
  features and contracts them with the whole matrix.  On the extended reals the two first layers agree when the query,
  the keys and the matrix are real numbers — the one place the distributive law, and so the precondition, is used;
  everything after the first layer is the same function of its sums on both sides (a change of float format changes no
  value, a product into a zero accumulator is the plain sum, the logistic is 1/(1 + e^(−z)) in either spelling, and
  sums are taken in any order).

  The frames are the generated ones; the idealization rewrote nothing.  The kernel's result array is read off the
  generated block-by-block run (Proof/KernelLayer0, KernelScore, KernelOut: the body at one entry; KernelValue: blocks to
  array; KernelRun: the host's collection of the weights), the reference's off its generated run and read-at-an-index
  lemmas (Proof/RefLayer0, RefTail), and both are the unit's result function of Proof/Spec and Proof/SpecArrays.
-/
import proofs.«179337_j33956011442642_2_alg».proof.Defs
import proofs.«179337_j33956011442642_2_alg».proof.Proof.Gen.Kernel
import proofs.«179337_j33956011442642_2_alg».proof.Proof.Gen.Kernel.Frame
import proofs.«179337_j33956011442642_2_alg».proof.Proof.Gen.KernelIdeal
import proofs.«179337_j33956011442642_2_alg».proof.Proof.Gen.KernelIdeal.Frame
import proofs.«179337_j33956011442642_2_alg».proof.Proof.Gen.KernelIdeal.Value
import proofs.«179337_j33956011442642_2_alg».proof.Proof.Gen.ReferenceIdeal
import proofs.«179337_j33956011442642_2_alg».proof.Proof.Gen.ReferenceIdeal.Run
import proofs.«179337_j33956011442642_2_alg».proof.Proof.Gen.ReferenceIdeal.Read
import proofs.«179337_j33956011442642_2_alg».proof.Proof.Gen.Pre_finite_inputs
import proofs.«179337_j33956011442642_2_alg».proof.Proof.KernelRun
import proofs.«179337_j33956011442642_2_alg».proof.Proof.RefTail
import proofs.«179337_j33956011442642_2_alg».proof.Proof.Finite
import Idealize.ShloMosaic.Adequacy
import Idealize.ShloMosaic.Init

noncomputable section

namespace Cert.Proof

open Idealize.ShloMosaic Idealize.ShloMosaic.TcCoe Idealize.SL.Sem Cert.ActUnit

/-- The kernel as printed runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the unit's result of the (agreeing) argument arrays. -/
theorem algebraic : Cert.algebraic_KernelIdeal_ReferenceIdeal := by
  intro m ρ m' ρ' hpre hagree
  refine ⟨fun c => unitResult (Cert.KernelIdeal.BlockValue.arg0 m c) (Cert.KernelIdeal.BlockValue.arg1 m c) (Cert.KernelIdeal.BlockValue.arg3 m c) (Cert.KernelIdeal.BlockValue.arg4 m c) (Cert.KernelIdeal.BlockValue.arg5 m c) (Cert.KernelIdeal.BlockValue.arg6 m c) (Cert.KernelIdeal.BlockValue.arg7 m c) (Cert.KernelIdeal.BlockValue.arg8 m c) (Cert.KernelIdeal.BlockValue.arg9 m c) (Cert.KernelIdeal.BlockValue.arg10 m c) (Cert.KernelIdeal.BlockValue.arg11 m c) (Cert.KernelIdeal.BlockValue.arg12 m c) (Cert.KernelIdeal.BlockValue.arg13 m c) (Cert.KernelIdeal.BlockValue.arg14 m c),
    (θ_run Cert.KernelIdeal.defs _ _).mono
      (fun r h c => ⟨(h c).1.trans (Cert.KernelIdeal.BlockValue.result16 m c), (h c).2⟩)
      (Cert.KernelIdeal.Value.run_blocks (F := Ideal) m ρ), ?_⟩
  refine (θ_run Cert.ReferenceIdeal.defs _ _).mono (fun r h c => ⟨(h c).1.trans ?_, (h c).2⟩)
    (Cert.ReferenceIdeal.Value.run (F := Ideal) m' ρ')
  rw [Cert.ReferenceIdeal.Read.val_main_v61_eq]
  obtain ⟨hq, hk, hw⟩ := Cert.Pre_finite_inputs.Decode.reals_of_pre (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (hpre c)
  obtain ⟨e0, e1, e2, e3, e4, e5, e6, e7, e8, e9, e10, e11, e12, e13, e14⟩ := hagree c
  rw [e0, e1, e3, e4, e5, e6, e7, e8, e9, e10, e11, e12, e13, e14]
  exact Cert.ReferenceIdeal.RefValue.reference_eq _ _ _ _ _ _ _ _ _ _ _ _ _ _ hq hk hw

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
